-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S200000 : Shape := ⟨1, ![200000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg7 : FVec F S128 .f32) (main_arg8 : FVec F S128x64 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg8
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S200000 32) (main_arg3 : IVec S200000 32) (main_arg4 : FVec F S128x128 .f32) (main_arg5 : FVec F S128 .f32) (main_arg6 : FVec F S128x128 .f32) (main_arg7 : FVec F S128 .f32) (main_arg8 : FVec F S128x64 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_v13 main_v16
-- ==== Kernel.lean ====
abbrev S100000x128 : Shape := ⟨2, ![100000, 128]⟩
abbrev S2x1600000 : Shape := ⟨2, ![2, 1600000]⟩
abbrev S200000 : Shape := ⟨1, ![200000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S2000x128 : Shape := ⟨2, ![2000, 128]⟩
abbrev S1600000x128 : Shape := ⟨2, ![1600000, 128]⟩
abbrev S1x128 : Shape := ⟨2, ![1, 128]⟩
abbrev S2000x1 : Shape := ⟨2, ![2000, 1]⟩
abbrev S100000x64 : Shape := ⟨2, ![100000, 64]⟩
abbrev S2000x64 : Shape := ⟨2, ![2000, 64]⟩
abbrev S1600000x64 : Shape := ⟨2, ![1600000, 64]⟩
abbrev S1x64 : Shape := ⟨2, ![1, 64]⟩
abbrev S200000x1 : Shape := ⟨2, ![200000, 1]⟩
abbrev S200000x64 : Shape := ⟨2, ![200000, 64]⟩
abbrev S2000 : Shape := ⟨1, ![2000]⟩

abbrev nBuf : Space → Nat
  | .hbm => 124
  | .vmem => 48
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S200000, .i32⟩
  | .hbm, ⟨3, _⟩ => ⟨S200000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000, .f32⟩
  | .hbm, ⟨46, _⟩ => ⟨S100000x1, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S1600000x1, .f32⟩
  | .hbm, ⟨58, _⟩ => ⟨S1600000x128, .f32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .f32⟩
  | .hbm, ⟨76, _⟩ => ⟨S1600000x1, .f32⟩
  | .hbm, ⟨77, _⟩ => ⟨S1600000x128, .f32⟩
  | .hbm, ⟨78, _⟩ => ⟨S1600000x128, .f32⟩
  | .hbm, ⟨79, _⟩ => ⟨S_, .f32⟩
  | .hbm, ⟨80, _⟩ => ⟨S100000x128, .f32⟩
  | .hbm, ⟨81, _⟩ => ⟨S1600000x1, .i32⟩
  | .hbm, ⟨82, _⟩ => ⟨S100000x128, .f32⟩
  | .hbm, ⟨83, _⟩ => ⟨S1x128, .f32⟩
  | .hbm, ⟨84, _⟩ => ⟨S100000x128, .f32⟩
  | .hbm, ⟨85, _⟩ => ⟨S100000x64, .f32⟩
  | .hbm, ⟨86, _⟩ => ⟨S_, .i32⟩
  | .hbm, ⟨87, _⟩ => ⟨S1600000, .i32⟩
  | .hbm, ⟨88, _⟩ => ⟨S1600000, .i1⟩
  | .hbm, ⟨89, _⟩ => ⟨S_, .i32⟩
  | .hbm, ⟨90, _⟩ => ⟨S1600000, .i32⟩
  | .hbm, ⟨91, _⟩ => ⟨S1600000, .i32⟩
  | .hbm, ⟨92, _⟩ => ⟨S1600000, .i32⟩
  | .hbm, ⟨93, _⟩ => ⟨S1600000x1, .i32⟩
  | .hbm, ⟨94, _⟩ => ⟨S1600000x64, .f32⟩
  | .hbm, ⟨95, _⟩ => ⟨S1600000x1, .f32⟩
  | .hbm, ⟨96, _⟩ => ⟨S1600000x64, .f32⟩
  | .hbm, ⟨97, _⟩ => ⟨S1600000x64, .f32⟩
  | .hbm, ⟨98, _⟩ => ⟨S_, .f32⟩
  | .hbm, ⟨99, _⟩ => ⟨S100000x64, .f32⟩
  | .hbm, ⟨100, _⟩ => ⟨S1600000x1, .i32⟩
  | .hbm, ⟨101, _⟩ => ⟨S100000x64, .f32⟩
  | .hbm, ⟨102, _⟩ => ⟨S1x64, .f32⟩
  | .hbm, ⟨103, _⟩ => ⟨S100000x64, .f32⟩
  | .hbm, ⟨104, _⟩ => ⟨S_, .i32⟩
  | .hbm, ⟨105, _⟩ => ⟨S200000, .i32⟩
  | .hbm, ⟨106, _⟩ => ⟨S200000, .i1⟩
  | .hbm, ⟨107, _⟩ => ⟨S_, .i32⟩
  | .hbm, ⟨108, _⟩ => ⟨S200000, .i32⟩
  | .hbm, ⟨109, _⟩ => ⟨S200000, .i32⟩
  | .hbm, ⟨110, _⟩ => ⟨S200000, .i32⟩
  | .hbm, ⟨111, _⟩ => ⟨S200000x1, .i32⟩
  | .hbm, ⟨112, _⟩ => ⟨S200000x64, .f32⟩
  | .hbm, ⟨113, _⟩ => ⟨S_, .i32⟩
  | .hbm, ⟨114, _⟩ => ⟨S200000, .i32⟩
  | .hbm, ⟨115, _⟩ => ⟨S200000, .i1⟩
  | .hbm, ⟨116, _⟩ => ⟨S_, .i32⟩
  | .hbm, ⟨117, _⟩ => ⟨S200000, .i32⟩
  | .hbm, ⟨118, _⟩ => ⟨S200000, .i32⟩
  | .hbm, ⟨119, _⟩ => ⟨S200000, .i32⟩
  | .hbm, ⟨120, _⟩ => ⟨S200000x1, .i32⟩
  | .hbm, ⟨121, _⟩ => ⟨S200000x64, .f32⟩
  | .hbm, ⟨122, _⟩ => ⟨S200000x1, .f32⟩
  | .hbm, ⟨123, _⟩ => ⟨S200000, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x1, .f32⟩
  | .local _ .vmem, ⟨24, _⟩ => ⟨S2000x1, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S2000x64, .f32⟩
  | .local _ .vmem, ⟨37, _⟩ => ⟨S2000x1, .f32⟩
  | .local _ .vmem, ⟨38, _⟩ => ⟨S2000x1, .f32⟩
  | .local _ .vmem, ⟨39, _⟩ => ⟨S1x64, .f32⟩
  | .local _ .vmem, ⟨40, _⟩ => ⟨S2000x64, .f32⟩
  | .local _ .vmem, ⟨41, _⟩ => ⟨S2000x64, .f32⟩
  | .local _ .vmem, ⟨42, _⟩ => ⟨S2000x64, .f32⟩
  | .local _ .vmem, ⟨43, _⟩ => ⟨S2000x64, .f32⟩
  | .local _ .vmem, ⟨44, _⟩ => ⟨S2000x64, .f32⟩
  | .local _ .vmem, ⟨45, _⟩ => ⟨S2000x64, .f32⟩
  | .local _ .vmem, ⟨46, _⟩ => ⟨S2000x1, .f32⟩
  | .local _ .vmem, ⟨47, _⟩ => ⟨S2000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_12 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_14 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_15 : Ref sig .tc := ⟨.hbm, 104, rfl⟩
abbrev main_v77 : Ref sig .tc := ⟨.hbm, 105, rfl⟩
abbrev main_v78 : Ref sig .tc := ⟨.hbm, 106, rfl⟩
abbrev main_c_16 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_c_17 : Ref sig .tc := ⟨.hbm, 113, rfl⟩
abbrev main_v84 : Ref sig .tc := ⟨.hbm, 114, rfl⟩
abbrev main_v85 : Ref sig .tc := ⟨.hbm, 115, rfl⟩
abbrev main_c_18 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg2_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem2_1 : DmaSem sig := 47

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S2000x128_S2000x128 : S2000x128.ShapeCasts S2000x128
  broadcasts_S2000x1_S2000x128 : S2000x1.Broadcasts S2000x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S2000x64_S2000x64 : S2000x64.ShapeCasts S2000x64
  broadcasts_S2000x1_S2000x64 : S2000x1.Broadcasts S2000x64
  broadcasts_S1x64_S2000x64 : S1x64.Broadcasts S2000x64
  bcast_S_S200000 : S_.BroadcastsInDim S200000 (![] : Fin 0 → Fin S200000.rank)
  bcast_S200000_S200000x1_0 : S200000.BroadcastsInDim S200000x1 (![0] : Fin 1 → Fin S200000x1.rank)
  reduces_S2000x64_S2000 : S2000x64.Reduces [1] S2000
  shapeCasts_S2000_S2000x1 : S2000.ShapeCasts S2000x1
  shapeCasts_S200000x1_S200000 : S200000x1.ShapeCasts S200000
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  gather_S100000x64_S200000x1_S200000x64_1_0_n_n_0_1_164_wf : GatherDims.WF S100000x64 S200000x1 S200000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .f32 = 32 ∨ (Rect.block (s := S100000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S100000x128.size a
  hwx3_4 : ∀ i : grid3.Coords, EltTy.bits .f32 = 32 ∨ (Rect.block (s := S100000x128) S2000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S100000x64.size a
  hwx4_2 : ∀ i : grid4.Coords, EltTy.bits .f32 = 32 ∨ (Rect.block (s := S100000x64) S2000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S100000x64.size a
  hwx5_0 : ∀ i : grid5.Coords, EltTy.bits .f32 = 32 ∨ (Rect.block (s := S100000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x64.size a ≤ S100000x64.size a
  hwx5_1 : ∀ i : grid5.Coords, EltTy.bits .f32 = 32 ∨ (Rect.block (s := S100000x64) S2000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S100000x1.size a
  hwx5_2 : ∀ i : grid5.Coords, EltTy.bits .f32 = 32 ∨ (Rect.block (s := S100000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x64.size a ≤ S100000x64.size a
  hwx5_4 : ∀ i : grid5.Coords, EltTy.bits .f32 = 32 ∨ (Rect.block (s := S100000x64) S2000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S200000x64.size a
  hwx6_0 : ∀ i : grid6.Coords, EltTy.bits .f32 = 32 ∨ (Rect.block (s := S200000x64) S2000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x64.size a ≤ S200000x64.size a
  hwx6_1 : ∀ i : grid6.Coords, EltTy.bits .f32 = 32 ∨ (Rect.block (s := S200000x64) S2000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x1.size a ≤ S200000x1.size a
  hwx6_2 : ∀ i : grid6.Coords, EltTy.bits .f32 = 32 ∨ (Rect.block (s := S200000x1) S2000x1.size (cc6_transform_2 i) (hinb6_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v60) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S2000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v74) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v61) S2000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v28) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v75) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v76) S2000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v83) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v90) S2000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v91) S2000x1.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S200000 : Shape := ⟨1, ![200000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩
abbrev S200000x1 : Shape := ⟨2, ![200000, 1]⟩
abbrev S200000x64 : Shape := ⟨2, ![200000, 64]⟩

abbrev nBuf : Space → Nat
  | .hbm => 145
  | .vmem => 0
  | .smem => 0
  | _ => 0

abbrev hbmTy0_0 (i : Nat) : BufTy := match i % 128 with
  | 0 => ⟨S100000x128, .f32⟩
  | 1 => ⟨S2x1600000, .i32⟩
  | 2 => ⟨S200000, .i32⟩
  | 3 => ⟨S200000, .i32⟩
  | 4 => ⟨S128x128, .f32⟩
  | 5 => ⟨S128, .f32⟩
  | 6 => ⟨S128x128, .f32⟩
  | 7 => ⟨S128, .f32⟩
  | 8 => ⟨S128x64, .f32⟩
  | 9 => ⟨S64, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S_, .f32⟩
  | 25 => ⟨S100000, .f32⟩
  | 26 => ⟨S100000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S1600000, .f32⟩
  | 46 => ⟨S100000x128, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x128, .f32⟩
  | 56 => ⟨S1600000x1, .f32⟩
  | 57 => ⟨S1600000x128, .f32⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S100000x1, .f32⟩
  | 64 => ⟨S100000x128, .f32⟩
  | 65 => ⟨S100000x128, .f32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S100000x128, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000x128, .f32⟩
  | 83 => ⟨S1600000x1, .f32⟩
  | 84 => ⟨S1600000x128, .f32⟩
  | 85 => ⟨S1600000x128, .f32⟩
  | 86 => ⟨S_, .f32⟩
  | 87 => ⟨S100000x128, .f32⟩
  | 88 => ⟨S1600000x1, .i32⟩
  | 89 => ⟨S100000x128, .f32⟩
  | 90 => ⟨S100000x1, .f32⟩
  | 91 => ⟨S100000x128, .f32⟩
  | 92 => ⟨S100000x128, .f32⟩
  | 93 => ⟨S100000x128, .f32⟩
  | 94 => ⟨S1x128, .f32⟩
  | 95 => ⟨S100000x128, .f32⟩
  | 96 => ⟨S100000x128, .f32⟩
  | 97 => ⟨S_, .f32⟩
  | 98 => ⟨S100000x128, .f32⟩
  | 99 => ⟨S100000x128, .f32⟩
  | 100 => ⟨S100000x64, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000x64, .f32⟩
  | 110 => ⟨S1600000x1, .f32⟩
  | 111 => ⟨S1600000x64, .f32⟩
  | 112 => ⟨S1600000x64, .f32⟩
  | 113 => ⟨S_, .f32⟩
  | 114 => ⟨S100000x64, .f32⟩
  | 115 => ⟨S1600000x1, .i32⟩
  | 116 => ⟨S100000x64, .f32⟩
  | 117 => ⟨S100000x1, .f32⟩
  | 118 => ⟨S100000x64, .f32⟩
  | 119 => ⟨S100000x64, .f32⟩
  | 120 => ⟨S100000x64, .f32⟩
  | 121 => ⟨S1x64, .f32⟩
  | 122 => ⟨S100000x64, .f32⟩
  | 123 => ⟨S100000x64, .f32⟩
  | 124 => ⟨S_, .i32⟩
  | 125 => ⟨S200000, .i32⟩
  | 126 => ⟨S200000, .i1⟩
  | 127 => ⟨S_, .i32⟩
  | _ => ⟨S100000x128, .f32⟩

abbrev hbmTy0_1 (i : Nat) : BufTy := match i % 128 with
  | 0 => ⟨S200000, .i32⟩
  | 1 => ⟨S200000, .i32⟩
  | 2 => ⟨S200000, .i32⟩
  | 3 => ⟨S200000x1, .i32⟩
  | 4 => ⟨S200000x64, .f32⟩
  | 5 => ⟨S_, .i32⟩
  | 6 => ⟨S200000, .i32⟩
  | 7 => ⟨S200000, .i1⟩
  | 8 => ⟨S_, .i32⟩
  | 9 => ⟨S200000, .i32⟩
  | 10 => ⟨S200000, .i32⟩
  | 11 => ⟨S200000, .i32⟩
  | 12 => ⟨S200000x1, .i32⟩
  | 13 => ⟨S200000x64, .f32⟩
  | 14 => ⟨S200000x64, .f32⟩
  | 15 => ⟨S_, .f32⟩
  | 16 => ⟨S200000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call0_cst : Ref sig .tc := ⟨.hbm, 70, rfl⟩
abbrev main_call0_v0 : Ref sig .tc := ⟨.hbm, 71, rfl⟩
abbrev main_v49 : Ref sig .tc := ⟨.hbm, 72, rfl⟩
abbrev main_v50 : Ref sig .tc := ⟨.hbm, 73, rfl⟩
abbrev main_c_9 : Ref sig .tc := ⟨.hbm, 74, rfl⟩
abbrev main_v51 : Ref sig .tc := ⟨.hbm, 75, rfl⟩
abbrev main_v52 : Ref sig .tc := ⟨.hbm, 76, rfl⟩
abbrev main_c_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_11 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_call1_cst : Ref sig .tc := ⟨.hbm, 97, rfl⟩
abbrev main_call1_v0 : Ref sig .tc := ⟨.hbm, 98, rfl⟩
abbrev main_v71 : Ref sig .tc := ⟨.hbm, 99, rfl⟩
abbrev main_v72 : Ref sig .tc := ⟨.hbm, 100, rfl⟩
abbrev main_c_12 : Ref sig .tc := ⟨.hbm, 101, rfl⟩
abbrev main_v73 : Ref sig .tc := ⟨.hbm, 102, rfl⟩
abbrev main_v74 : Ref sig .tc := ⟨.hbm, 103, rfl⟩
abbrev main_c_13 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_14 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_c_15 : Ref sig .tc := ⟨.hbm, 124, rfl⟩
abbrev main_v93 : Ref sig .tc := ⟨.hbm, 125, rfl⟩
abbrev main_v94 : Ref sig .tc := ⟨.hbm, 126, rfl⟩
abbrev main_c_16 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_c_17 : Ref sig .tc := ⟨.hbm, 133, rfl⟩
abbrev main_v100 : Ref sig .tc := ⟨.hbm, 134, rfl⟩
abbrev main_v101 : Ref sig .tc := ⟨.hbm, 135, rfl⟩
abbrev main_c_18 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_cst_19 : Ref sig .tc := ⟨.hbm, 143, rfl⟩
abbrev main_v108 : Ref sig .tc := ⟨.hbm, 144, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S200000 : S_.BroadcastsInDim S200000 (![] : Fin 0 → Fin S200000.rank)
  bcast_S200000_S200000x1_0 : S200000.BroadcastsInDim S200000x1 (![0] : Fin 1 → Fin S200000x1.rank)
  reducesTo_S200000x64_S200000_d1 : S200000x64.ReducesTo [1] S200000
  h_S_ : 0 < S_.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  gather_S100000x64_S200000x1_S200000x64_1_0_n_n_0_1_164_wf : GatherDims.WF S100000x64 S200000x1 S200000x64 [1] [0] [] [0] [] 1 ![1, 64]

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf

class Facts : Prop extends Facts₀ where

variable [Facts]
-- ==== Proof.RunValue.lean ====
/-
  The idealized kernel's run with its result named. The program is seven kernel launches among stretches of host
  operations; the generated frame threads the TensorCore's buffer contents through every segment boundary
  (`Gen.W0` … `Gen.W13`) and keeps, of the last boundary, only that the arguments are as launched. Here the same
  launch is read once more with the result buffer kept as well: every weakly fair execution terminates with the
  result at the last boundary's contents `Gen.W13` of it, and the arguments unchanged.
-/
import proofs.«167174_j89043261980692_1_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the idealized kernel's @main terminates, nothing faulting, with the result buffer
    at the last segment boundary's contents and every argument as launched: the launch over the program's thirteen
    segments, the last thread state read against the final state, the result buffer among the unscoped ones. -/
theorem run_value : θ_run defs (onTc (τ := τ) (main (F := F))) ⟨m, fun _ => 0, ρ⟩ (fun r => ∀ c : Dev nD,
      r.2.mem ((c.tc : Thread nD τ).loc main_v92) = W13 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v92 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c)⟩)

end Cert.KernelIdeal.RunV

end
-- ==== Proof.Carry.lean ====
/-
  What rides unchanged through the program's segments. The idealized kernel's @main is seven kernel launches among
  stretches of host operations. The first stretch computes, from the edge list alone, the source and target node of every
  edge, the edge weights (the product of the inverse square roots of the two end degrees) and the column of inverse
  degrees; no later stretch and no launch writes these four buffers or an argument. So at every later segment boundary
  they hold what the first stretch left: the reference's own stages of the edge list, operation for operation.
-/
import proofs.«167174_j89043261980692_1_alg».proof.Proof.Gen.KernelIdeal.Frame
import proofs.«167174_j89043261980692_1_alg».proof.Proof.Gen.ReferenceIdeal.Read
import Idealize.ShloMosaic.Lib.StableHlo.Run

set_option maxRecDepth 16384

noncomputable section

namespace Cert.KernelIdeal.Carry

open Cert.KernelIdeal Cert.KernelIdeal.Gen
open Idealize.ShloMosaic Idealize.ShloMosaic.TcCoe Idealize.SL.Sem Idealize.ShloMosaic.StableHlo
open Cert.ReferenceIdeal (Read.val_main_v1 Read.val_main_v3 Read.val_main_v27 Read.val_main_v12)

variable (m : (ℓ : Loc nD τ sig) → Buf (Elt Ideal) ℓ) (ρ : Dev nD → PrngReg)

/-- The buffers every later segment leaves alone: the edges' sources and targets, the edge weights, the column of
    inverse degrees, and the ten arguments. -/
def keepRefs : List (Ref sig .tc) :=
  [main_v1, main_v3, main_v27, main_v28, main_arg0, main_arg1, main_arg2, main_arg3, main_arg4, main_arg5, main_arg6, main_arg7, main_arg8, main_arg9]

theorem mem_v1 : main_v1 ∈ keepRefs := by simp [keepRefs]
theorem mem_v3 : main_v3 ∈ keepRefs := by simp [keepRefs]
theorem mem_v27 : main_v27 ∈ keepRefs := by simp [keepRefs]
theorem mem_v28 : main_v28 ∈ keepRefs := by simp [keepRefs]
theorem mem_arg0 : main_arg0 ∈ keepRefs := by simp [keepRefs]
theorem mem_arg1 : main_arg1 ∈ keepRefs := by simp [keepRefs]
theorem mem_arg2 : main_arg2 ∈ keepRefs := by simp [keepRefs]
theorem mem_arg3 : main_arg3 ∈ keepRefs := by simp [keepRefs]
theorem mem_arg4 : main_arg4 ∈ keepRefs := by simp [keepRefs]
theorem mem_arg5 : main_arg5 ∈ keepRefs := by simp [keepRefs]
theorem mem_arg6 : main_arg6 ∈ keepRefs := by simp [keepRefs]
theorem mem_arg7 : main_arg7 ∈ keepRefs := by simp [keepRefs]
theorem mem_arg8 : main_arg8 ∈ keepRefs := by simp [keepRefs]
theorem mem_arg9 : main_arg9 ∈ keepRefs := by simp [keepRefs]

/-- A valuation of the buffers that agrees with the first boundary's on the kept buffers. -/
def Agree (c : Dev nD) (W : Valuation τ sig (Elt Ideal)) : Prop :=
  ∀ b ∈ keepRefs, W (Proc.devRef .tc b) = W1 m ρ c (Proc.devRef .tc b)

/-! ## A host stretch writes none of the kept buffers -/

theorem host1_keep (W : Valuation τ sig (Elt Ideal)) :
    ∀ b ∈ keepRefs, StableHlo.after (hostOps1 (F := Ideal)) W (Proc.devRef .tc b) = W (Proc.devRef .tc b) := by
  intro b hb
  simp only [keepRefs, List.mem_cons, List.mem_singleton, List.not_mem_nil, or_false] at hb
  rcases hb with rfl | rfl | rfl | rfl | rfl | rfl | rfl | rfl | rfl | rfl | rfl | rfl | rfl | rfl
  all_goals after_results_simp

theorem host3_keep (W : Valuation τ sig (Elt Ideal)) :
    ∀ b ∈ keepRefs, StableHlo.after (hostOps3 (F := Ideal)) W (Proc.devRef .tc b) = W (Proc.devRef .tc b) := by
  intro b hb
  simp only [keepRefs, List.mem_cons, List.mem_singleton, List.not_mem_nil, or_false] at hb
  rcases hb with rfl | rfl | rfl | rfl | rfl | rfl | rfl | rfl | rfl | rfl | rfl | rfl | rfl | rfl
  all_goals after_results_simp

theorem host5_keep (W : Valuation τ sig (Elt Ideal)) :
    ∀ b ∈ keepRefs, StableHlo.after (hostOps5 (F := Ideal)) W (Proc.devRef .tc b) = W (Proc.devRef .tc b) := by
  intro b hb
  simp only [keepRefs, List.mem_cons, List.mem_singleton, List.not_mem_nil, or_false] at hb
  rcases hb with rfl | rfl | rfl | rfl | rfl | rfl | rfl | rfl | rfl | rfl | rfl | rfl | rfl | rfl
  all_goals after_results_simp

/-! ## A launch leaves a kept buffer alone: it is either none of the launch's arrays, or one of its INPUT arrays, which the
write-backs never touch -/

theorem region0_keep (c : Dev nD) : ∀ b ∈ keepRefs, W2 m ρ c (Proc.devRef .tc b) = W1 m ρ c (Proc.devRef .tc b) := by
  intro b hb
  simp only [keepRefs, List.mem_cons, List.mem_singleton, List.not_mem_nil, or_false] at hb
  rcases hb with rfl | rfl | rfl | rfl | rfl | rfl | rfl | rfl | rfl | rfl | rfl | rfl | rfl | rfl
  all_goals first
    | exact W2_of_ne m ρ c _ (by decide)
    | exact (W2_arr m ρ c 0).trans (((dat0 (V1 m ρ) c).arrAt_in 0 rfl _).trans (A_eq0 (V1 m ρ) c 0))
    | exact (W2_arr m ρ c 1).trans (((dat0 (V1 m ρ) c).arrAt_in 1 rfl _).trans (A_eq0 (V1 m ρ) c 1))

theorem region1_keep (c : Dev nD) : ∀ b ∈ keepRefs, W4 m ρ c (Proc.devRef .tc b) = W3 m ρ c (Proc.devRef .tc b) := by
  intro b hb
  simp only [keepRefs, List.mem_cons, List.mem_singleton, List.not_mem_nil, or_false] at hb
  rcases hb with rfl | rfl | rfl | rfl | rfl | rfl | rfl | rfl | rfl | rfl | rfl | rfl | rfl | rfl
  all_goals first
    | exact W4_of_ne m ρ c _ (by decide)
    | exact (W4_arr m ρ c 0).trans (((dat1 (V3 m ρ) c).arrAt_in 0 rfl _).trans (A_eq1 (V3 m ρ) c 0))
    | exact (W4_arr m ρ c 1).trans (((dat1 (V3 m ρ) c).arrAt_in 1 rfl _).trans (A_eq1 (V3 m ρ) c 1))
    | exact (W4_arr m ρ c 2).trans (((dat1 (V3 m ρ) c).arrAt_in 2 rfl _).trans (A_eq1 (V3 m ρ) c 2))
    | exact (W4_arr m ρ c 3).trans (((dat1 (V3 m ρ) c).arrAt_in 3 rfl _).trans (A_eq1 (V3 m ρ) c 3))

theorem region2_keep (c : Dev nD) : ∀ b ∈ keepRefs, W5 m ρ c (Proc.devRef .tc b) = W4 m ρ c (Proc.devRef .tc b) := by
  intro b hb
  simp only [keepRefs, List.mem_cons, List.mem_singleton, List.not_mem_nil, or_false] at hb
  rcases hb with rfl | rfl | rfl | rfl | rfl | rfl | rfl | rfl | rfl | rfl | rfl | rfl | rfl | rfl
  all_goals first
    | exact W5_of_ne m ρ c _ (by decide)
    | exact (W5_arr m ρ c 0).trans (((dat2 (V4 m ρ) c).arrAt_in 0 rfl _).trans (A_eq2 (V4 m ρ) c 0))
    | exact (W5_arr m ρ c 1).trans (((dat2 (V4 m ρ) c).arrAt_in 1 rfl _).trans (A_eq2 (V4 m ρ) c 1))

theorem region3_keep (c : Dev nD) : ∀ b ∈ keepRefs, W7 m ρ c (Proc.devRef .tc b) = W6 m ρ c (Proc.devRef .tc b) := by
  intro b hb
  simp only [keepRefs, List.mem_cons, List.mem_singleton, List.not_mem_nil, or_false] at hb
  rcases hb with rfl | rfl | rfl | rfl | rfl | rfl | rfl | rfl | rfl | rfl | rfl | rfl | rfl | rfl
  all_goals first
    | exact W7_of_ne m ρ c _ (by decide)
    | exact (W7_arr m ρ c 0).trans (((dat3 (V6 m ρ) c).arrAt_in 0 rfl _).trans (A_eq3 (V6 m ρ) c 0))
    | exact (W7_arr m ρ c 1).trans (((dat3 (V6 m ρ) c).arrAt_in 1 rfl _).trans (A_eq3 (V6 m ρ) c 1))
    | exact (W7_arr m ρ c 2).trans (((dat3 (V6 m ρ) c).arrAt_in 2 rfl _).trans (A_eq3 (V6 m ρ) c 2))
    | exact (W7_arr m ρ c 3).trans (((dat3 (V6 m ρ) c).arrAt_in 3 rfl _).trans (A_eq3 (V6 m ρ) c 3))

theorem region4_keep (c : Dev nD) : ∀ b ∈ keepRefs, W8 m ρ c (Proc.devRef .tc b) = W7 m ρ c (Proc.devRef .tc b) := by
  intro b hb
  simp only [keepRefs, List.mem_cons, List.mem_singleton, List.not_mem_nil, or_false] at hb
  rcases hb with rfl | rfl | rfl | rfl | rfl | rfl | rfl | rfl | rfl | rfl | rfl | rfl | rfl | rfl
  all_goals first
    | exact W8_of_ne m ρ c _ (by decide)
    | exact (W8_arr m ρ c 0).trans (((dat4 (V7 m ρ) c).arrAt_in 0 rfl _).trans (A_eq4 (V7 m ρ) c 0))
    | exact (W8_arr m ρ c 1).trans (((dat4 (V7 m ρ) c).arrAt_in 1 rfl _).trans (A_eq4 (V7 m ρ) c 1))

theorem region5_keep (c : Dev nD) : ∀ b ∈ keepRefs, W10 m ρ c (Proc.devRef .tc b) = W9 m ρ c (Proc.devRef .tc b) := by
  intro b hb
  simp only [keepRefs, List.mem_cons, List.mem_singleton, List.not_mem_nil, or_false] at hb
  rcases hb with rfl | rfl | rfl | rfl | rfl | rfl | rfl | rfl | rfl | rfl | rfl | rfl | rfl | rfl
  all_goals first
    | exact W10_of_ne m ρ c _ (by decide)
    | exact (W10_arr m ρ c 0).trans (((dat5 (V9 m ρ) c).arrAt_in 0 rfl _).trans (A_eq5 (V9 m ρ) c 0))
    | exact (W10_arr m ρ c 1).trans (((dat5 (V9 m ρ) c).arrAt_in 1 rfl _).trans (A_eq5 (V9 m ρ) c 1))
    | exact (W10_arr m ρ c 2).trans (((dat5 (V9 m ρ) c).arrAt_in 2 rfl _).trans (A_eq5 (V9 m ρ) c 2))
    | exact (W10_arr m ρ c 3).trans (((dat5 (V9 m ρ) c).arrAt_in 3 rfl _).trans (A_eq5 (V9 m ρ) c 3))

/-! ## The kept buffers at every boundary up to the last launch's entry -/

theorem agree1 (c : Dev nD) : Agree m ρ c (W1 m ρ c) := fun _ _ => rfl
theorem agree2 (c : Dev nD) : Agree m ρ c (W2 m ρ c) := fun b hb => (region0_keep m ρ c b hb).trans (agree1 m ρ c b hb)
theorem agree3 (c : Dev nD) : Agree m ρ c (W3 m ρ c) := fun b hb => (host1_keep (W2 m ρ c) b hb).trans (agree2 m ρ c b hb)
theorem agree4 (c : Dev nD) : Agree m ρ c (W4 m ρ c) := fun b hb => (region1_keep m ρ c b hb).trans (agree3 m ρ c b hb)
theorem agree5 (c : Dev nD) : Agree m ρ c (W5 m ρ c) := fun b hb => (region2_keep m ρ c b hb).trans (agree4 m ρ c b hb)
theorem agree6 (c : Dev nD) : Agree m ρ c (W6 m ρ c) := fun b hb => (host3_keep (W5 m ρ c) b hb).trans (agree5 m ρ c b hb)
theorem agree7 (c : Dev nD) : Agree m ρ c (W7 m ρ c) := fun b hb => (region3_keep m ρ c b hb).trans (agree6 m ρ c b hb)
theorem agree8 (c : Dev nD) : Agree m ρ c (W8 m ρ c) := fun b hb => (region4_keep m ρ c b hb).trans (agree7 m ρ c b hb)
theorem agree9 (c : Dev nD) : Agree m ρ c (W9 m ρ c) := fun b hb => (host5_keep (W8 m ρ c) b hb).trans (agree8 m ρ c b hb)
theorem agree10 (c : Dev nD) : Agree m ρ c (W10 m ρ c) := fun b hb => (region5_keep m ρ c b hb).trans (agree9 m ρ c b hb)

/-! ## What the first stretch leaves: the reference's stages of the edge list, and the arguments as launched -/

/-- The edges' source nodes: row 0 of the edge list. -/
theorem w1_src (c : Dev nD) : W1 m ρ c (Proc.devRef .tc main_v1) = Read.val_main_v1 (F := Ideal) (m ((c : Thread nD τ).loc main_arg1)) := by
  show StableHlo.after hostOps0 (W0 m ρ c) (Proc.devRef .tc main_v1) = _
  after_results_simp
  rfl
/-- The edges' target nodes: row 1 of the edge list. -/
theorem w1_dst (c : Dev nD) : W1 m ρ c (Proc.devRef .tc main_v3) = Read.val_main_v3 (F := Ideal) (m ((c : Thread nD τ).loc main_arg1)) := by
  show StableHlo.after hostOps0 (W0 m ρ c) (Proc.devRef .tc main_v3) = _
  after_results_simp
  rfl
/-- The edge weights: the product of the two end nodes' inverse square-root degrees. -/
theorem w1_we (c : Dev nD) : W1 m ρ c (Proc.devRef .tc main_v27) = Read.val_main_v27 (F := Ideal) (m ((c : Thread nD τ).loc main_arg1)) := by
  show StableHlo.after hostOps0 (W0 m ρ c) (Proc.devRef .tc main_v27) = _
  after_results_simp
  rfl
/-- The column of inverse degrees: the reference's inverse degrees, one per row. -/
theorem w1_dcol (c : Dev nD) : W1 m ρ c (Proc.devRef .tc main_v28)
    = shapeCast S100000x1 (Read.val_main_v12 (F := Ideal) (m ((c : Thread nD τ).loc main_arg1))) shapeCasts_S100000_S100000x1 := by
  show StableHlo.after hostOps0 (W0 m ρ c) (Proc.devRef .tc main_v28) = _
  after_results_simp
  rfl
theorem w1_arg0 (c : Dev nD) : W1 m ρ c (Proc.devRef .tc main_arg0) = m ((c : Thread nD τ).loc main_arg0) := by
  show StableHlo.after hostOps0 (W0 m ρ c) (Proc.devRef .tc main_arg0) = _
  after_results_simp
theorem w1_arg1 (c : Dev nD) : W1 m ρ c (Proc.devRef .tc main_arg1) = m ((c : Thread nD τ).loc main_arg1) := by
  show StableHlo.after hostOps0 (W0 m ρ c) (Proc.devRef .tc main_arg1) = _
  after_results_simp
theorem w1_arg2 (c : Dev nD) : W1 m ρ c (Proc.devRef .tc main_arg2) = m ((c : Thread nD τ).loc main_arg2) := by
  show StableHlo.after hostOps0 (W0 m ρ c) (Proc.devRef .tc main_arg2) = _
  after_results_simp
theorem w1_arg3 (c : Dev nD) : W1 m ρ c (Proc.devRef .tc main_arg3) = m ((c : Thread nD τ).loc main_arg3) := by
  show StableHlo.after hostOps0 (W0 m ρ c) (Proc.devRef .tc main_arg3) = _
  after_results_simp
theorem w1_arg4 (c : Dev nD) : W1 m ρ c (Proc.devRef .tc main_arg4) = m ((c : Thread nD τ).loc main_arg4) := by
  show StableHlo.after hostOps0 (W0 m ρ c) (Proc.devRef .tc main_arg4) = _
  after_results_simp
theorem w1_arg5 (c : Dev nD) : W1 m ρ c (Proc.devRef .tc main_arg5) = m ((c : Thread nD τ).loc main_arg5) := by
  show StableHlo.after hostOps0 (W0 m ρ c) (Proc.devRef .tc main_arg5) = _
  after_results_simp
theorem w1_arg6 (c : Dev nD) : W1 m ρ c (Proc.devRef .tc main_arg6) = m ((c : Thread nD τ).loc main_arg6) := by
  show StableHlo.after hostOps0 (W0 m ρ c) (Proc.devRef .tc main_arg6) = _
  after_results_simp
theorem w1_arg7 (c : Dev nD) : W1 m ρ c (Proc.devRef .tc main_arg7) = m ((c : Thread nD τ).loc main_arg7) := by
  show StableHlo.after hostOps0 (W0 m ρ c) (Proc.devRef .tc main_arg7) = _
  after_results_simp
theorem w1_arg8 (c : Dev nD) : W1 m ρ c (Proc.devRef .tc main_arg8) = m ((c : Thread nD τ).loc main_arg8) := by
  show StableHlo.after hostOps0 (W0 m ρ c) (Proc.devRef .tc main_arg8) = _
  after_results_simp
theorem w1_arg9 (c : Dev nD) : W1 m ρ c (Proc.devRef .tc main_arg9) = m ((c : Thread nD τ).loc main_arg9) := by
  show StableHlo.after hostOps0 (W0 m ρ c) (Proc.devRef .tc main_arg9) = _
  after_results_simp

end Cert.KernelIdeal.Carry

end
-- ==== Proof.LibColumn.lean ====
/-
  Small general lemmas: the keep-dimension column forms of a cast and a broadcast read at an index, and a lane
  maximum, a lane sum and the host's maximum-reduce over the columns of a rank-2 array read at a row.
-/
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.Lib

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A reduced row index with the column put back is the pair. -/
theorem lift_row {n m : ℕ} (h : (⟨2, ![n, m]⟩ : Shape).Reduces [1] (⟨1, ![n]⟩ : Shape)) (r : Fin n)
    (k : Fin ((⟨2, ![n, m]⟩ : Shape).size 1)) : h.lift (ix1 r) k = ix2 r (⟨k.val, k.isLt⟩ : Fin m) := by
  funext c; apply Fin.ext
  fin_cases c <;> rfl

/-- A lane maximum of an `[n, m]` vector at row `r` is the fold of `max` over that row. -/
theorem multiReduction_max_row {n m : ℕ} (z : FVec Ideal ⟨2, ![n, m]⟩ .f32)
    (h : (⟨2, ![n, m]⟩ : Shape).Reduces [1] (⟨1, ![n]⟩ : Shape)) (hφ : FKind.Formats .f32)
    (hacc : (0xFF800000#32 : BitVec 32) = 0xFF800000#32) (r : Fin n) :
    multiReduction .maximumf [1] ⟨1, ![n]⟩ z 0xFF800000#32 h hφ hacc (ix1 r)
      = (Finset.univ : Finset (Fin m)).fold max (Ideal.ofBits .f32 0xFF800000#32) fun j => z (ix2 r j) := by
  refine (Ideal.multiReduction_maximumf_single z 0xFF800000#32 h hφ hacc (ix1 r)).trans ?_
  have hf : (z ∘ h.lift (ix1 r)) = fun k : Fin m => z (ix2 r k) := funext fun k => congrArg z (lift_row h r k)
  exact congrArg (fun f => Finset.fold max (Ideal.ofBits .f32 0xFF800000#32) f (Finset.univ : Finset (Fin m))) hf

/-- A lane sum of an `[n, m]` vector at row `r` is the sum over that row. -/
theorem multiReduction_add_row {n m : ℕ} (z : FVec Ideal ⟨2, ![n, m]⟩ .f32)
    (h : (⟨2, ![n, m]⟩ : Shape).Reduces [1] (⟨1, ![n]⟩ : Shape)) (hφ : FKind.Formats .f32)
    (hacc : (0x00000000#32 : BitVec 32) = 0x00000000#32) (r : Fin n) :
    multiReduction .add [1] ⟨1, ![n]⟩ z 0x00000000#32 h hφ hacc (ix1 r) = ∑ j : Fin m, z (ix2 r j) := by
  refine (Ideal.multiReduction_add_single z 0x00000000#32 h hφ hacc (ix1 r)).trans ?_
  exact Finset.sum_congr rfl fun k _ => congrArg z (lift_row h r k)

/-- The host's reduce with a maximum body over the columns, at row `r`: the fold of `max` over that row from the initial value. -/
theorem hostReduce_max_row {n m : ℕ} (x : FVec Ideal ⟨2, ![n, m]⟩ .f32) (init : (⟨0, ![]⟩ : Shape).Idx → EReal)
    (h' : (⟨2, ![n, m]⟩ : Shape).ReducesTo [1] (⟨1, ![n]⟩ : Shape)) (h : (⟨2, ![n, m]⟩ : Shape).Reduces [1] (⟨1, ![n]⟩ : Shape))
    (hu : 0 < (⟨0, ![]⟩ : Shape).numel) (r : Fin n) :
    Host.reduce FloatOps.maximumf x init h' hu (ix1 r) = (Finset.univ : Finset (Fin m)).fold max (init ix0) fun j => x (ix2 r j) := by
  rw [Host.reduce_eq_fold_single FloatOps.maximumf x init h' h hu]
  have hf : (x ∘ h.lift (ix1 r)) = fun k : Fin m => x (ix2 r k) := funext fun k => congrArg x (lift_row h r k)
  have hi : init (Shape.Idx.first hu) = init ix0 := congrArg init (eq_ix0 _)
  rw [hi]
  exact congrArg (fun f => Finset.fold max (init ix0) f (Finset.univ : Finset (Fin m))) hf

/-- The logarithm and the exponential of a vector at an index are those of the element. -/
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

end Cert.Lib

end
-- ==== Proof.Region0.lean ====
/- The linear region: the output array, entry by entry, is the product of the activations' row and the
   weights' column. The body's matrix product of two loaded blocks is read at an entry as a sum over the
   contracted axis; each grid point writes back the block of rows it covers of that whole-array product; the
   blocks of 2000 rows cover all 100000 rows. -/
import proofs.«167174_j89043261980692_1_alg».proof.Proof.Gen.KernelIdeal.Frame
import proofs.«167174_j89043261980692_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionV0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The matrix product of two blocks at an entry -/

theorem lhs_0 (i : S2000x128.Idx) (r : dot_S2000x128_S128x128_S2000x128_1_0_0_1_n_n.contr.Idx) : (dot_S2000x128_S128x128_S2000x128_1_0_0_1_n_n.lhsIdx i r 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_1 (i : S2000x128.Idx) (r : dot_S2000x128_S128x128_S2000x128_1_0_0_1_n_n.contr.Idx) : (dot_S2000x128_S128x128_S2000x128_1_0_0_1_n_n.lhsIdx i r 1).val = (r ⟨0, by decide⟩).val :=
  dot_S2000x128_S128x128_S2000x128_1_0_0_1_n_n.lhsIdx_val_of_single rfl i r
theorem rhs_0 (i : S2000x128.Idx) (r : dot_S2000x128_S128x128_S2000x128_1_0_0_1_n_n.contr.Idx) : (dot_S2000x128_S128x128_S2000x128_1_0_0_1_n_n.rhsIdx i r 0).val = (r ⟨0, by decide⟩).val :=
  dot_S2000x128_S128x128_S2000x128_1_0_0_1_n_n.rhsIdx_val_of_single rfl i r
theorem rhs_1 (i : S2000x128.Idx) (r : dot_S2000x128_S128x128_S2000x128_1_0_0_1_n_n.contr.Idx) : (dot_S2000x128_S128x128_S2000x128_1_0_0_1_n_n.rhsIdx i r 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The body's payload at an entry: the row of the first block against the column of the second (the casts to
    bf16 are the identity on extended reals; the accumulator is the zero splat). -/
theorem pay_apply (x0 : Vec Ideal S2000x128 .f32) (x1 : Vec Ideal S128x128 .f32) (p : Fin 2000) (q : Fin 128) :
    k0_pay1 (F := Ideal) x0 x1 (ix2 p q) = ∑ k : Fin 128, x0 (ix2 p k) * x1 (ix2 k q) := by
  unfold k0_pay1
  refine (Ideal.matmul_constant_zero_apply dot_S2000x128_S128x128_S2000x128_1_0_0_1_n_n none _ _ (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_0 _ _
    | ⟨1, _⟩ => exact (lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_0 _ _).trans hk
    | ⟨1, _⟩ => exact rhs_1 _ _)
  show x0 (dot_S2000x128_S128x128_S2000x128_1_0_0_1_n_n.lhsIdx (ix2 p q) ((contrEquiv1 dot_S2000x128_S128x128_S2000x128_1_0_0_1_n_n 128 rfl rfl).symm k))
      * x1 (dot_S2000x128_S128x128_S2000x128_1_0_0_1_n_n.rhsIdx (ix2 p q) ((contrEquiv1 dot_S2000x128_S128x128_S2000x128_1_0_0_1_n_n 128 rfl rfl).symm k)) = _
  rw [el, er]

/-- The same at any index of the block, its coordinates named. -/
theorem pay_read (x0 : Vec Ideal S2000x128 .f32) (x1 : Vec Ideal S128x128 .f32) (j : S2000x128.Idx) :
    k0_pay1 (F := Ideal) x0 x1 j
      = ∑ k : Fin 128, x0 (ix2 (⟨(j 0).val, idx2_lt0 j⟩ : Fin 2000) k) * x1 (ix2 k (⟨(j 1).val, idx2_lt1 j⟩ : Fin 128)) := by
  have e : j = ix2 (⟨(j 0).val, idx2_lt0 j⟩ : Fin 2000) (⟨(j 1).val, idx2_lt1 j⟩ : Fin 128) := eq_ix2 j
  rw [e]
  exact pay_apply x0 x1 _ _

/-! ## The whole-array product, and what each grid point writes back -/

/-- The product of the activations and the weights, entry by entry. -/
abbrev G (X : S100000x128.Idx → EReal) (W : S128x128.Idx → EReal) : S100000x128.Idx → EReal := fun i =>
  ∑ k : Fin 128, X (ix2 (⟨(i 0).val, idx2_lt0 i⟩ : Fin 100000) k) * W (ix2 k (⟨(i 1).val, idx2_lt1 i⟩ : Fin 128))

/-- The index maps over the grid: the activations' and the output's block index is the grid point on the rows and
    zero on the columns; the weights' block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The activations' block at point `t` reads the array at row `t * 2000 + ` the row inside the block. -/
theorem read_act (c : Dev nD) (t : Fin cfg0.N) (y : S2000x128.Idx) (i : S100000x128.Idx)
    (h0 : (i 0).val = t.val * 2000 + (y 0).val) (h1 : (i 1).val = (y 1).val) :
    iblk0 V c 0 t y = (V c main_arg0 : S100000x128.Idx → EReal) i := by
  show (V c main_arg0 : S100000x128.Idx → EReal) (((cfg0.win 0).blk t).view.emb y) = _
  obtain ⟨e0, e1, -, -, -, -⟩ := idx_facts t
  have e : ((cfg0.win 0).blk t).view.emb y = i := by
    funext a; apply Fin.ext
    match a with
    | ⟨0, _⟩ => show win0_0.index t (0 : Fin 2) * 2000 + 1 * (y 0).val = (i 0).val; omega
    | ⟨1, _⟩ => show win0_0.index t (1 : Fin 2) * 128 + 1 * (y 1).val = (i 1).val; omega
  rw [e]

/-- The weights' block at every point is the whole array. -/
theorem read_wt (c : Dev nD) (t : Fin cfg0.N) (y : S128x128.Idx) (i : S128x128.Idx)
    (h0 : (i 0).val = (y 0).val) (h1 : (i 1).val = (y 1).val) :
    iblk0 V c 1 t y = (V c main_arg4 : S128x128.Idx → EReal) i := by
  show (V c main_arg4 : S128x128.Idx → EReal) (((cfg0.win 1).blk t).view.emb y) = _
  obtain ⟨-, -, e0, e1, -, -⟩ := idx_facts t
  have e : ((cfg0.win 1).blk t).view.emb y = i := by
    funext a; apply Fin.ext
    match a with
    | ⟨0, _⟩ => show win0_1.index t (0 : Fin 2) * 128 + 1 * (y 0).val = (i 0).val; omega
    | ⟨1, _⟩ => show win0_1.index t (1 : Fin 2) * 128 + 1 * (y 1).val = (i 1).val; omega
  rw [e]

/-- Where an entry of the output's block at point `t` sits in the array. -/
theorem emb_out (t : Fin cfg0.N) (y : S2000x128.Idx) :
    ((((cfg0.win 2).blk t).view.emb y) 0).val = t.val * 2000 + (y 0).val
    ∧ ((((cfg0.win 2).blk t).view.emb y) 1).val = (y 1).val := by
  obtain ⟨-, -, -, -, e0, e1⟩ := idx_facts t
  constructor
  · show win0_2.index t (0 : Fin 2) * 2000 + 1 * (y 0).val = _; omega
  · show win0_2.index t (1 : Fin 2) * 128 + 1 * (y 1).val = _; omega

/-- What point `t` writes back is block `t` of the whole-array product. -/
theorem flushed_eq (c : Dev nD) (t : Fin cfg0.N) :
    (dat0 (F := Ideal) V c).flushed 2 t
      = ((cfg0.win 2).blk t).view.read (Elt Ideal) (G (V c main_arg0) (V c main_arg4)) := by
  show (cfg0.win 2).cut (grid0.coords t) ((dat0 (F := Ideal) V c).after 2 t) = _
  rw [after0_2]
  unfold out0_2
  rw [View.canon_unit_zero hz]
  simp only [View.ld_unit_zero (S := S2000x128) hz, View.ld_unit_zero (S := S128x128) hz]
  funext j
  show k0_pay1 (F := Ideal) (iblk0 V c 0 t) (iblk0 V c 1 t) j
      = G (V c main_arg0) (V c main_arg4) (((cfg0.win 2).blk t).view.emb j)
  refine (pay_read _ _ j).trans ?_
  obtain ⟨h0, h1⟩ := emb_out t j
  refine Finset.sum_congr rfl fun k _ => ?_
  exact congrArg₂ (· * ·) (read_act V c t _ _ h0 rfl) (read_wt V c t _ _ rfl h1)

/-! ## The blocks cover the array -/

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v29).slice (win0_2.rect t)).set ↔ _
  rw [View.set_slice_whole, Rect.mem_set_unit]
  exact Iff.rfl

/-- Row `r` is in the block of point `r / 2000`. -/
theorem cover (i : S100000x128.Idx) :
    ∃ t : Fin cfg0.N, (cfg0.win 2).flush t = true ∧ i ∈ ((cfg0.win 2).blk t).view.set := by
  have hi0 : (i 0).val < 100000 := idx2_lt0 i
  have hi1 : (i 1).val < 128 := idx2_lt1 i
  have hN : grid0.N = 50 := N_0
  obtain ⟨t, ht⟩ : ∃ t : Fin cfg0.N, t.val = (i 0).val / 2000 :=
    ⟨⟨(i 0).val / 2000, by show (i 0).val / 2000 < grid0.N; omega⟩, rfl⟩
  obtain ⟨-, -, -, -, e0, e1⟩ := idx_facts t
  refine ⟨t, flush0_2 t, ?_⟩
  rw [mem_blk]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 128 ≤ (i 1).val ∧ (i 1).val < win0_2.index t (1 : Fin 2) * 128 + 128
    omega

/-- The array the output window ends holding is the whole-array product. -/
theorem arr_eq (c : Dev nD) :
    (dat0 (F := Ideal) V c).arrAt 2 cfg0.N = G (V c main_arg0) (V c main_arg4) :=
  (dat0 (F := Ideal) V c).arrAt_eq_of_cover 2 (G (V c main_arg0) (V c main_arg4)) (fun t _ => flushed_eq V c t) cover

/-- The region's output, entry by entry: the activations' row against the weights' column. -/
theorem final (c : Dev nD) (X : S100000x128.Idx → EReal) (W : S128x128.Idx → EReal) (Y : S100000x128.Idx → EReal)
    (hX : V c main_arg0 = X) (hW : V c main_arg4 = W) (hY : (dat0 (F := Ideal) V c).arrAt 2 cfg0.N = Y)
    (p : Fin 100000) (q : Fin 128) :
    Y (ix2 p q) = ∑ k : Fin 128, X (ix2 p k) * W (ix2 k q) := by
  subst hX hW hY
  exact (congrFun (arr_eq V c) (ix2 p q)).trans rfl

end Cert.KernelIdeal.RegionV0

end
-- ==== Proof.Region1.lean ====
/- The combine step of the first layer: the output array of the region, read at row p and lane q, is the
   aggregate plus the features times the row's degree entry, plus the bias lane, clamped below at the zero word,
   each array taken as the region finds it. -/
import proofs.«167174_j89043261980692_1_alg».proof.Proof.Gen.KernelIdeal.Frame
import proofs.«167174_j89043261980692_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionV1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The body's payload at row p, lane q of a block. -/
theorem pay_apply (d : Vec Ideal S2000x1 .f32) (b : Vec Ideal S1x128 .f32) (a h : Vec Ideal S2000x128 .f32)
    (p : Fin 2000) (q : Fin 128) :
    k1_pay1 (F := Ideal) d b a h (ix2 p q)
      = max ((a (ix2 p q) + h (ix2 p q) * d (ix2 p (0 : Fin 1))) + b (ix2 (0 : Fin 1) q)) (Ideal.ofBits .f32 0x00000000#32) := by
  unfold k1_pay1
  simp only [shapeCast_self]
  rw [maximumf_apply, addf_apply, addf_apply, mulf_apply, broadcast_apply,
    Cert.Lib.broadcastTo_a1_ab_apply, broadcastTo_1b_ab_apply]
  rfl

/-- The same, at any index of the block. -/
theorem pay_at (d : Vec Ideal S2000x1 .f32) (b : Vec Ideal S1x128 .f32) (a h : Vec Ideal S2000x128 .f32)
    (j : S2000x128.Idx) :
    k1_pay1 (F := Ideal) d b a h j
      = max ((a j + h j * d (ix2 (j 0) (0 : Fin 1))) + b (ix2 (0 : Fin 1) (j 1))) (Ideal.ofBits .f32 0x00000000#32) := by
  obtain ⟨p, q, rfl⟩ : ∃ (p : Fin 2000) (q : Fin 128), j = ix2 p q := ⟨j 0, j 1, eq_ix2 j⟩
  exact pay_apply d b a h p q

/-- What the output array ends holding, index by index. -/
abbrev G (A H : S100000x128.Idx → EReal) (D : S100000x1.Idx → EReal) (B : S1x128.Idx → EReal) : S100000x128.Idx → EReal :=
  fun i => max ((A i + H i * D (ix2 (i 0) (0 : Fin 1))) + B (ix2 (0 : Fin 1) (i 1))) (Ideal.ofBits .f32 0x00000000#32)

/-- The index maps over the grid: the row blocks move with the grid point, the bias row stays. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregate's block at point t is rows 2000 t … 2000 t + 1999 of its array. -/
theorem blk0_apply (c : Dev nD) (t : Fin cfg1.N) (y : S2000x128.Idx) (k : S100000x128.Idx)
    (hk0 : (k 0).val = 2000 * t.val + (y 0).val) (hk1 : (k 1).val = (y 1).val) :
    (iblk1 V c 0 t : Vec Ideal S2000x128 .f32) y = (V c main_v42 : S100000x128.Idx → EReal) k := by
  obtain ⟨e0, e1, -⟩ := idx_facts t
  unfold iblk1
  rw [View.read_apply]
  show V c main_v42 _ = V c main_v42 _
  congr 1
  funext a; apply Fin.ext
  match a with
  | ⟨0, _⟩ => show win1_0.index t (0 : Fin 2) * 2000 + 1 * (y 0).val = (k 0).val; rw [e0, hk0]; omega
  | ⟨1, _⟩ => show win1_0.index t (1 : Fin 2) * 128 + 1 * (y 1).val = (k 1).val; rw [e1, hk1]; omega

/-- The features' block likewise. -/
theorem blk1_apply (c : Dev nD) (t : Fin cfg1.N) (y : S2000x128.Idx) (k : S100000x128.Idx)
    (hk0 : (k 0).val = 2000 * t.val + (y 0).val) (hk1 : (k 1).val = (y 1).val) :
    (iblk1 V c 1 t : Vec Ideal S2000x128 .f32) y = (V c main_v29 : S100000x128.Idx → EReal) k := by
  obtain ⟨-, -, e0, e1, -⟩ := idx_facts t
  unfold iblk1
  rw [View.read_apply]
  show V c main_v29 _ = V c main_v29 _
  congr 1
  funext a; apply Fin.ext
  match a with
  | ⟨0, _⟩ => show win1_1.index t (0 : Fin 2) * 2000 + 1 * (y 0).val = (k 0).val; rw [e0, hk0]; omega
  | ⟨1, _⟩ => show win1_1.index t (1 : Fin 2) * 128 + 1 * (y 1).val = (k 1).val; rw [e1, hk1]; omega

/-- The degree column's block is the same rows of the column. -/
theorem blk2_apply (c : Dev nD) (t : Fin cfg1.N) (y : S2000x1.Idx) (k : S100000x1.Idx)
    (hk0 : (k 0).val = 2000 * t.val + (y 0).val) :
    (iblk1 V c 2 t : Vec Ideal S2000x1 .f32) y = (V c main_v28 : S100000x1.Idx → EReal) k := by
  obtain ⟨-, -, -, -, e0, e1, -⟩ := idx_facts t
  unfold iblk1
  rw [View.read_apply]
  show V c main_v28 _ = V c main_v28 _
  congr 1
  funext a; apply Fin.ext
  match a with
  | ⟨0, _⟩ => show win1_2.index t (0 : Fin 2) * 2000 + 1 * (y 0).val = (k 0).val; rw [e0, hk0]; omega
  | ⟨1, _⟩ =>
    show win1_2.index t (1 : Fin 2) * 1 + 1 * (y 1).val = (k 1).val
    have h1 : (y 1).val < 1 := (y 1).isLt
    have h2 : (k 1).val < 1 := (k 1).isLt
    rw [e1]; omega

/-- The bias row's block is the whole row at every point. -/
theorem blk3_apply (c : Dev nD) (t : Fin cfg1.N) (y : S1x128.Idx) (k : S1x128.Idx) (hk1 : (k 1).val = (y 1).val) :
    (iblk1 V c 3 t : Vec Ideal S1x128 .f32) y = (V c main_v43 : S1x128.Idx → EReal) k := by
  obtain ⟨-, -, -, -, -, -, e0, e1, -⟩ := idx_facts t
  unfold iblk1
  rw [View.read_apply]
  show V c main_v43 _ = V c main_v43 _
  congr 1
  funext a; apply Fin.ext
  match a with
  | ⟨0, _⟩ =>
    show win1_3.index t (0 : Fin 2) * 1 + 1 * (y 0).val = (k 0).val
    have h1 : (y 0).val < 1 := (y 0).isLt
    have h2 : (k 0).val < 1 := (k 0).isLt
    rw [e0]; omega
  | ⟨1, _⟩ => show win1_3.index t (1 : Fin 2) * 128 + 1 * (y 1).val = (k 1).val; rw [e1, hk1]; omega

/-- Where the output's block at point t puts its element y. -/
theorem emb4 (t : Fin cfg1.N) (y : S2000x128.Idx) :
    (((((cfg1.win 4).blk t).view.emb y : S100000x128.Idx) 0).val = 2000 * t.val + (y 0).val)
    ∧ (((((cfg1.win 4).blk t).view.emb y : S100000x128.Idx) 1).val = (y 1).val) := by
  obtain ⟨-, -, -, -, -, -, -, -, e0, e1⟩ := idx_facts t
  constructor
  · show win1_4.index t (0 : Fin 2) * 2000 + 1 * (y 0).val = _; rw [e0]; omega
  · show win1_4.index t (1 : Fin 2) * 128 + 1 * (y 1).val = _; rw [e1]; omega

/-- What point t writes back is block t of G of the arrays as the region finds them. -/
theorem flushed_eq (c : Dev nD) (t : Fin cfg1.N) :
    (dat1 V c).flushed 4 t = ((cfg1.win 4).blk t).view.read (Elt Ideal)
      (G (V c main_v42) (V c main_v29) (V c main_v28) (V c main_v43)) := by
  show (cfg1.win 4).cut (grid1.coords t) ((dat1 V c).after 4 t) = _
  rw [after1_4]
  unfold out1_4
  rw [View.canon_unit_zero zeros2]
  simp only [View.ld_unit_zero (S := S2000x128) zeros2, View.ld_unit_zero (S := S2000x1) zeros2,
    View.ld_unit_zero (S := S1x128) zeros2]
  have key : ∀ y : S2000x128.Idx,
      k1_pay1 (F := Ideal) (iblk1 V c 2 t) (iblk1 V c 3 t) (iblk1 V c 0 t) (iblk1 V c 1 t) y
        = G (V c main_v42) (V c main_v29) (V c main_v28) (V c main_v43) (((cfg1.win 4).blk t).view.emb y) := by
    intro y
    obtain ⟨h0, h1⟩ := emb4 t y
    refine (pay_at _ _ _ _ y).trans ?_
    have a0 := blk0_apply V c t y _ h0 h1
    have a1 := blk1_apply V c t y _ h0 h1
    have a2 := blk2_apply V c t (ix2 (y 0) (0 : Fin 1))
      (ix2 ((((cfg1.win 4).blk t).view.emb y : S100000x128.Idx) 0) (0 : Fin 1)) h0
    have a3 := blk3_apply V c t (ix2 (0 : Fin 1) (y 1))
      (ix2 (0 : Fin 1) ((((cfg1.win 4).blk t).view.emb y : S100000x128.Idx) 1)) h1
    rw [a0, a1, a2, a3]
  funext j
  exact key j

/-- An index of the array is in point t's block iff each coordinate is in the block's range on its axis. -/
theorem mem_blk (t : Fin cfg1.N) (i : S100000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole main_v44).slice (win1_4.rect t)).set ↔ _
  rw [View.set_slice_whole, Rect.mem_set_unit]
  exact Iff.rfl

/-- Row r is in the block of point r / 2000. -/
theorem cover (i : S100000x128.Idx) :
    ∃ t : Fin cfg1.N, (cfg1.win 4).flush t = true ∧ i ∈ ((cfg1.win 4).blk t).view.set := by
  have hN : grid1.N = 50 := N_1
  have hi0 : (i 0).val < 100000 := (i 0).isLt
  have hi1 : (i 1).val < 128 := (i 1).isLt
  have ht : (i 0).val / 2000 < cfg1.N := by show _ < grid1.N; omega
  obtain ⟨-, -, -, -, -, -, -, -, e0, e1⟩ := idx_facts ⟨(i 0).val / 2000, ht⟩
  refine ⟨⟨(i 0).val / 2000, ht⟩, flush1_4 _, ?_⟩
  rw [mem_blk]
  intro a
  match a with
  | ⟨0, _⟩ =>
    show win1_4.index ⟨(i 0).val / 2000, ht⟩ (0 : Fin 2) * 2000 ≤ (i 0).val
      ∧ (i 0).val < win1_4.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_4.index ⟨(i 0).val / 2000, ht⟩ (1 : Fin 2) * 128 ≤ (i 1).val
      ∧ (i 1).val < win1_4.index ⟨(i 0).val / 2000, ht⟩ (1 : Fin 2) * 128 + 128
    rw [e1]; omega

/-- The output array after the region. -/
theorem arr_eq (c : Dev nD) :
    (dat1 V c).arrAt 4 cfg1.N = G (V c main_v42) (V c main_v29) (V c main_v28) (V c main_v43) :=
  (dat1 V c).arrAt_eq_of_cover 4 _ (fun t _ => flushed_eq V c t) cover

/-- The output array read at row p, lane q. -/
theorem final (c : Dev nD) (A H : S100000x128.Idx → EReal) (D : S100000x1.Idx → EReal) (B : S1x128.Idx → EReal) (Y : S100000x128.Idx → EReal)
    (hA : V c main_v42 = A) (hH : V c main_v29 = H) (hD : V c main_v28 = D) (hB : V c main_v43 = B)
    (hY : (dat1 (F := Ideal) V c).arrAt 4 cfg1.N = Y) (p : Fin 100000) (q : Fin 128) :
    Y (ix2 p q) = max ((A (ix2 p q) + H (ix2 p q) * D (ix2 p (0 : Fin 1))) + B (ix2 (0 : Fin 1) q)) (Ideal.ofBits .f32 0x00000000#32) := by
  subst hA hH hD hB hY
  rw [arr_eq]

end Cert.KernelIdeal.RegionV1

end
-- ==== Proof.Region2.lean ====
/- The linear region: the output array, entry by entry, is the product of the activations' row and the
   weights' column. The body's matrix product of two loaded blocks is read at an entry as a sum over the
   contracted axis; each grid point writes back the block of rows it covers of that whole-array product; the
   blocks of 2000 rows cover all 100000 rows. -/
import proofs.«167174_j89043261980692_1_alg».proof.Proof.Gen.KernelIdeal.Frame
import proofs.«167174_j89043261980692_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionV2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The matrix product of two blocks at an entry -/

theorem lhs_0 (i : S2000x128.Idx) (r : dot_S2000x128_S128x128_S2000x128_1_0_0_1_n_n.contr.Idx) : (dot_S2000x128_S128x128_S2000x128_1_0_0_1_n_n.lhsIdx i r 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_1 (i : S2000x128.Idx) (r : dot_S2000x128_S128x128_S2000x128_1_0_0_1_n_n.contr.Idx) : (dot_S2000x128_S128x128_S2000x128_1_0_0_1_n_n.lhsIdx i r 1).val = (r ⟨0, by decide⟩).val :=
  dot_S2000x128_S128x128_S2000x128_1_0_0_1_n_n.lhsIdx_val_of_single rfl i r
theorem rhs_0 (i : S2000x128.Idx) (r : dot_S2000x128_S128x128_S2000x128_1_0_0_1_n_n.contr.Idx) : (dot_S2000x128_S128x128_S2000x128_1_0_0_1_n_n.rhsIdx i r 0).val = (r ⟨0, by decide⟩).val :=
  dot_S2000x128_S128x128_S2000x128_1_0_0_1_n_n.rhsIdx_val_of_single rfl i r
theorem rhs_1 (i : S2000x128.Idx) (r : dot_S2000x128_S128x128_S2000x128_1_0_0_1_n_n.contr.Idx) : (dot_S2000x128_S128x128_S2000x128_1_0_0_1_n_n.rhsIdx i r 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The body's payload at an entry: the row of the first block against the column of the second (the casts to
    bf16 are the identity on extended reals; the accumulator is the zero splat). -/
theorem pay_apply (x0 : Vec Ideal S2000x128 .f32) (x1 : Vec Ideal S128x128 .f32) (p : Fin 2000) (q : Fin 128) :
    k2_pay1 (F := Ideal) x0 x1 (ix2 p q) = ∑ k : Fin 128, x0 (ix2 p k) * x1 (ix2 k q) := by
  unfold k2_pay1
  refine (Ideal.matmul_constant_zero_apply dot_S2000x128_S128x128_S2000x128_1_0_0_1_n_n none _ _ (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_0 _ _
    | ⟨1, _⟩ => exact (lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_0 _ _).trans hk
    | ⟨1, _⟩ => exact rhs_1 _ _)
  show (shapeCast S2000x128 x0 shapeCasts_S2000x128_S2000x128) (dot_S2000x128_S128x128_S2000x128_1_0_0_1_n_n.lhsIdx (ix2 p q) ((contrEquiv1 dot_S2000x128_S128x128_S2000x128_1_0_0_1_n_n 128 rfl rfl).symm k))
      * x1 (dot_S2000x128_S128x128_S2000x128_1_0_0_1_n_n.rhsIdx (ix2 p q) ((contrEquiv1 dot_S2000x128_S128x128_S2000x128_1_0_0_1_n_n 128 rfl rfl).symm k)) = _
  rw [el, er, shapeCast_self]

/-- The same at any index of the block, its coordinates named. -/
theorem pay_read (x0 : Vec Ideal S2000x128 .f32) (x1 : Vec Ideal S128x128 .f32) (j : S2000x128.Idx) :
    k2_pay1 (F := Ideal) x0 x1 j
      = ∑ k : Fin 128, x0 (ix2 (⟨(j 0).val, idx2_lt0 j⟩ : Fin 2000) k) * x1 (ix2 k (⟨(j 1).val, idx2_lt1 j⟩ : Fin 128)) := by
  have e : j = ix2 (⟨(j 0).val, idx2_lt0 j⟩ : Fin 2000) (⟨(j 1).val, idx2_lt1 j⟩ : Fin 128) := eq_ix2 j
  rw [e]
  exact pay_apply x0 x1 _ _

/-! ## The whole-array product, and what each grid point writes back -/

/-- The product of the activations and the weights, entry by entry. -/
abbrev G (X : S100000x128.Idx → EReal) (W : S128x128.Idx → EReal) : S100000x128.Idx → EReal := fun i =>
  ∑ k : Fin 128, X (ix2 (⟨(i 0).val, idx2_lt0 i⟩ : Fin 100000) k) * W (ix2 k (⟨(i 1).val, idx2_lt1 i⟩ : Fin 128))

/-- The index maps over the grid: the activations' and the output's block index is the grid point on the rows and
    zero on the columns; the weights' block index is zero. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The activations' block at point `t` reads the array at row `t * 2000 + ` the row inside the block. -/
theorem read_act (c : Dev nD) (t : Fin cfg2.N) (y : S2000x128.Idx) (i : S100000x128.Idx)
    (h0 : (i 0).val = t.val * 2000 + (y 0).val) (h1 : (i 1).val = (y 1).val) :
    iblk2 V c 0 t y = (V c main_v44 : S100000x128.Idx → EReal) i := by
  show (V c main_v44 : S100000x128.Idx → EReal) (((cfg2.win 0).blk t).view.emb y) = _
  obtain ⟨e0, e1, -, -, -, -⟩ := idx_facts t
  have e : ((cfg2.win 0).blk t).view.emb y = i := by
    funext a; apply Fin.ext
    match a with
    | ⟨0, _⟩ => show win2_0.index t (0 : Fin 2) * 2000 + 1 * (y 0).val = (i 0).val; omega
    | ⟨1, _⟩ => show win2_0.index t (1 : Fin 2) * 128 + 1 * (y 1).val = (i 1).val; omega
  rw [e]

/-- The weights' block at every point is the whole array. -/
theorem read_wt (c : Dev nD) (t : Fin cfg2.N) (y : S128x128.Idx) (i : S128x128.Idx)
    (h0 : (i 0).val = (y 0).val) (h1 : (i 1).val = (y 1).val) :
    iblk2 V c 1 t y = (V c main_arg6 : S128x128.Idx → EReal) i := by
  show (V c main_arg6 : S128x128.Idx → EReal) (((cfg2.win 1).blk t).view.emb y) = _
  obtain ⟨-, -, e0, e1, -, -⟩ := idx_facts t
  have e : ((cfg2.win 1).blk t).view.emb y = i := by
    funext a; apply Fin.ext
    match a with
    | ⟨0, _⟩ => show win2_1.index t (0 : Fin 2) * 128 + 1 * (y 0).val = (i 0).val; omega
    | ⟨1, _⟩ => show win2_1.index t (1 : Fin 2) * 128 + 1 * (y 1).val = (i 1).val; omega
  rw [e]

/-- Where an entry of the output's block at point `t` sits in the array. -/
theorem emb_out (t : Fin cfg2.N) (y : S2000x128.Idx) :
    ((((cfg2.win 2).blk t).view.emb y) 0).val = t.val * 2000 + (y 0).val
    ∧ ((((cfg2.win 2).blk t).view.emb y) 1).val = (y 1).val := by
  obtain ⟨-, -, -, -, e0, e1⟩ := idx_facts t
  constructor
  · show win2_2.index t (0 : Fin 2) * 2000 + 1 * (y 0).val = _; omega
  · show win2_2.index t (1 : Fin 2) * 128 + 1 * (y 1).val = _; omega

/-- What point `t` writes back is block `t` of the whole-array product. -/
theorem flushed_eq (c : Dev nD) (t : Fin cfg2.N) :
    (dat2 (F := Ideal) V c).flushed 2 t
      = ((cfg2.win 2).blk t).view.read (Elt Ideal) (G (V c main_v44) (V c main_arg6)) := by
  show (cfg2.win 2).cut (grid2.coords t) ((dat2 (F := Ideal) V c).after 2 t) = _
  rw [after2_2]
  unfold out2_2
  rw [View.canon_unit_zero hz]
  simp only [View.ld_unit_zero (S := S2000x128) hz, View.ld_unit_zero (S := S128x128) hz]
  funext j
  show k2_pay1 (F := Ideal) (iblk2 V c 0 t) (iblk2 V c 1 t) j
      = G (V c main_v44) (V c main_arg6) (((cfg2.win 2).blk t).view.emb j)
  refine (pay_read _ _ j).trans ?_
  obtain ⟨h0, h1⟩ := emb_out t j
  refine Finset.sum_congr rfl fun k _ => ?_
  exact congrArg₂ (· * ·) (read_act V c t _ _ h0 rfl) (read_wt V c t _ _ rfl h1)

/-! ## The blocks cover the array -/

/-- An index of the array is in point `t`'s block iff each coordinate is in the block's range on its axis. -/
theorem mem_blk (t : Fin cfg2.N) (i : S100000x128.Idx) :
    i ∈ ((cfg2.win 2).blk t).view.set ↔ ∀ a : Fin 2, win2_2.index t a * S2000x128.size a ≤ (i a).val
      ∧ (i a).val < win2_2.index t a * S2000x128.size a + S2000x128.size a := by
  show i ∈ ((View.whole main_v45).slice (win2_2.rect t)).set ↔ _
  rw [View.set_slice_whole, Rect.mem_set_unit]
  exact Iff.rfl

/-- Row `r` is in the block of point `r / 2000`. -/
theorem cover (i : S100000x128.Idx) :
    ∃ t : Fin cfg2.N, (cfg2.win 2).flush t = true ∧ i ∈ ((cfg2.win 2).blk t).view.set := by
  have hi0 : (i 0).val < 100000 := idx2_lt0 i
  have hi1 : (i 1).val < 128 := idx2_lt1 i
  have hN : grid2.N = 50 := N_2
  obtain ⟨t, ht⟩ : ∃ t : Fin cfg2.N, t.val = (i 0).val / 2000 :=
    ⟨⟨(i 0).val / 2000, by show (i 0).val / 2000 < grid2.N; omega⟩, rfl⟩
  obtain ⟨-, -, -, -, e0, e1⟩ := idx_facts t
  refine ⟨t, flush2_2 t, ?_⟩
  rw [mem_blk]
  intro a
  match a with
  | ⟨0, _⟩ =>
    show win2_2.index t (0 : Fin 2) * 2000 ≤ (i 0).val ∧ (i 0).val < win2_2.index t (0 : Fin 2) * 2000 + 2000
    omega
  | ⟨1, _⟩ =>
    show win2_2.index t (1 : Fin 2) * 128 ≤ (i 1).val ∧ (i 1).val < win2_2.index t (1 : Fin 2) * 128 + 128
    omega

/-- The array the output window ends holding is the whole-array product. -/
theorem arr_eq (c : Dev nD) :
    (dat2 (F := Ideal) V c).arrAt 2 cfg2.N = G (V c main_v44) (V c main_arg6) :=
  (dat2 (F := Ideal) V c).arrAt_eq_of_cover 2 (G (V c main_v44) (V c main_arg6)) (fun t _ => flushed_eq V c t) cover

/-- The region's output, entry by entry: the activations' row against the weights' column. -/
theorem final (c : Dev nD) (X : S100000x128.Idx → EReal) (W : S128x128.Idx → EReal) (Y : S100000x128.Idx → EReal)
    (hX : V c main_v44 = X) (hW : V c main_arg6 = W) (hY : (dat2 (F := Ideal) V c).arrAt 2 cfg2.N = Y)
    (p : Fin 100000) (q : Fin 128) :
    Y (ix2 p q) = ∑ k : Fin 128, X (ix2 p k) * W (ix2 k q) := by
  subst hX hW hY
  exact (congrFun (arr_eq V c) (ix2 p q)).trans rfl

end Cert.KernelIdeal.RegionV2

end
-- ==== Proof.Region3.lean ====
/- The combine step of the second layer: the output array of the region, read at row p and lane q, is the
   aggregate plus the features times the row's degree entry, plus the bias lane, clamped below at the zero word,
   each array taken as the region finds it. -/
import proofs.«167174_j89043261980692_1_alg».proof.Proof.Gen.KernelIdeal.Frame
import proofs.«167174_j89043261980692_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionV3

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The body's payload at row p, lane q of a block. -/
theorem pay_apply (d : Vec Ideal S2000x1 .f32) (b : Vec Ideal S1x128 .f32) (a h : Vec Ideal S2000x128 .f32)
    (p : Fin 2000) (q : Fin 128) :
    k3_pay1 (F := Ideal) d b a h (ix2 p q)
      = max ((a (ix2 p q) + h (ix2 p q) * d (ix2 p (0 : Fin 1))) + b (ix2 (0 : Fin 1) q)) (Ideal.ofBits .f32 0x00000000#32) := by
  unfold k3_pay1
  simp only [shapeCast_self]
  rw [maximumf_apply, addf_apply, addf_apply, mulf_apply, broadcast_apply,
    Cert.Lib.broadcastTo_a1_ab_apply, broadcastTo_1b_ab_apply]
  rfl

/-- The same, at any index of the block. -/
theorem pay_at (d : Vec Ideal S2000x1 .f32) (b : Vec Ideal S1x128 .f32) (a h : Vec Ideal S2000x128 .f32)
    (j : S2000x128.Idx) :
    k3_pay1 (F := Ideal) d b a h j
      = max ((a j + h j * d (ix2 (j 0) (0 : Fin 1))) + b (ix2 (0 : Fin 1) (j 1))) (Ideal.ofBits .f32 0x00000000#32) := by
  obtain ⟨p, q, rfl⟩ : ∃ (p : Fin 2000) (q : Fin 128), j = ix2 p q := ⟨j 0, j 1, eq_ix2 j⟩
  exact pay_apply d b a h p q

/-- What the output array ends holding, index by index. -/
abbrev G (A H : S100000x128.Idx → EReal) (D : S100000x1.Idx → EReal) (B : S1x128.Idx → EReal) : S100000x128.Idx → EReal :=
  fun i => max ((A i + H i * D (ix2 (i 0) (0 : Fin 1))) + B (ix2 (0 : Fin 1) (i 1))) (Ideal.ofBits .f32 0x00000000#32)

/-- The index maps over the grid: the row blocks move with the grid point, the bias row stays. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The aggregate's block at point t is rows 2000 t … 2000 t + 1999 of its array. -/
theorem blk0_apply (c : Dev nD) (t : Fin cfg3.N) (y : S2000x128.Idx) (k : S100000x128.Idx)
    (hk0 : (k 0).val = 2000 * t.val + (y 0).val) (hk1 : (k 1).val = (y 1).val) :
    (iblk3 V c 0 t : Vec Ideal S2000x128 .f32) y = (V c main_v58 : S100000x128.Idx → EReal) k := by
  obtain ⟨e0, e1, -⟩ := idx_facts t
  unfold iblk3
  rw [View.read_apply]
  show V c main_v58 _ = V c main_v58 _
  congr 1
  funext a; apply Fin.ext
  match a with
  | ⟨0, _⟩ => show win3_0.index t (0 : Fin 2) * 2000 + 1 * (y 0).val = (k 0).val; rw [e0, hk0]; omega
  | ⟨1, _⟩ => show win3_0.index t (1 : Fin 2) * 128 + 1 * (y 1).val = (k 1).val; rw [e1, hk1]; omega

/-- The features' block likewise. -/
theorem blk1_apply (c : Dev nD) (t : Fin cfg3.N) (y : S2000x128.Idx) (k : S100000x128.Idx)
    (hk0 : (k 0).val = 2000 * t.val + (y 0).val) (hk1 : (k 1).val = (y 1).val) :
    (iblk3 V c 1 t : Vec Ideal S2000x128 .f32) y = (V c main_v45 : S100000x128.Idx → EReal) k := by
  obtain ⟨-, -, e0, e1, -⟩ := idx_facts t
  unfold iblk3
  rw [View.read_apply]
  show V c main_v45 _ = V c main_v45 _
  congr 1
  funext a; apply Fin.ext
  match a with
  | ⟨0, _⟩ => show win3_1.index t (0 : Fin 2) * 2000 + 1 * (y 0).val = (k 0).val; rw [e0, hk0]; omega
  | ⟨1, _⟩ => show win3_1.index t (1 : Fin 2) * 128 + 1 * (y 1).val = (k 1).val; rw [e1, hk1]; omega

/-- The degree column's block is the same rows of the column. -/
theorem blk2_apply (c : Dev nD) (t : Fin cfg3.N) (y : S2000x1.Idx) (k : S100000x1.Idx)
    (hk0 : (k 0).val = 2000 * t.val + (y 0).val) :
    (iblk3 V c 2 t : Vec Ideal S2000x1 .f32) y = (V c main_v28 : S100000x1.Idx → EReal) k := by
  obtain ⟨-, -, -, -, e0, e1, -⟩ := idx_facts t
  unfold iblk3
  rw [View.read_apply]
  show V c main_v28 _ = V c main_v28 _
  congr 1
  funext a; apply Fin.ext
  match a with
  | ⟨0, _⟩ => show win3_2.index t (0 : Fin 2) * 2000 + 1 * (y 0).val = (k 0).val; rw [e0, hk0]; omega
  | ⟨1, _⟩ =>
    show win3_2.index t (1 : Fin 2) * 1 + 1 * (y 1).val = (k 1).val
    have h1 : (y 1).val < 1 := (y 1).isLt
    have h2 : (k 1).val < 1 := (k 1).isLt
    rw [e1]; omega

/-- The bias row's block is the whole row at every point. -/
theorem blk3_apply (c : Dev nD) (t : Fin cfg3.N) (y : S1x128.Idx) (k : S1x128.Idx) (hk1 : (k 1).val = (y 1).val) :
    (iblk3 V c 3 t : Vec Ideal S1x128 .f32) y = (V c main_v59 : S1x128.Idx → EReal) k := by
  obtain ⟨-, -, -, -, -, -, e0, e1, -⟩ := idx_facts t
  unfold iblk3
  rw [View.read_apply]
  show V c main_v59 _ = V c main_v59 _
  congr 1
  funext a; apply Fin.ext
  match a with
  | ⟨0, _⟩ =>
    show win3_3.index t (0 : Fin 2) * 1 + 1 * (y 0).val = (k 0).val
    have h1 : (y 0).val < 1 := (y 0).isLt
    have h2 : (k 0).val < 1 := (k 0).isLt
    rw [e0]; omega
  | ⟨1, _⟩ => show win3_3.index t (1 : Fin 2) * 128 + 1 * (y 1).val = (k 1).val; rw [e1, hk1]; omega

/-- Where the output's block at point t puts its element y. -/
theorem emb4 (t : Fin cfg3.N) (y : S2000x128.Idx) :
    (((((cfg3.win 4).blk t).view.emb y : S100000x128.Idx) 0).val = 2000 * t.val + (y 0).val)
    ∧ (((((cfg3.win 4).blk t).view.emb y : S100000x128.Idx) 1).val = (y 1).val) := by
  obtain ⟨-, -, -, -, -, -, -, -, e0, e1⟩ := idx_facts t
  constructor
  · show win3_4.index t (0 : Fin 2) * 2000 + 1 * (y 0).val = _; rw [e0]; omega
  · show win3_4.index t (1 : Fin 2) * 128 + 1 * (y 1).val = _; rw [e1]; omega

/-- What point t writes back is block t of G of the arrays as the region finds them. -/
theorem flushed_eq (c : Dev nD) (t : Fin cfg3.N) :
    (dat3 V c).flushed 4 t = ((cfg3.win 4).blk t).view.read (Elt Ideal)
      (G (V c main_v58) (V c main_v45) (V c main_v28) (V c main_v59)) := by
  show (cfg3.win 4).cut (grid3.coords t) ((dat3 V c).after 4 t) = _
  rw [after3_4]
  unfold out3_4
  rw [View.canon_unit_zero zeros2]
  simp only [View.ld_unit_zero (S := S2000x128) zeros2, View.ld_unit_zero (S := S2000x1) zeros2,
    View.ld_unit_zero (S := S1x128) zeros2]
  have key : ∀ y : S2000x128.Idx,
      k3_pay1 (F := Ideal) (iblk3 V c 2 t) (iblk3 V c 3 t) (iblk3 V c 0 t) (iblk3 V c 1 t) y
        = G (V c main_v58) (V c main_v45) (V c main_v28) (V c main_v59) (((cfg3.win 4).blk t).view.emb y) := by
    intro y
    obtain ⟨h0, h1⟩ := emb4 t y
    refine (pay_at _ _ _ _ y).trans ?_
    have a0 := blk0_apply V c t y _ h0 h1
    have a1 := blk1_apply V c t y _ h0 h1
    have a2 := blk2_apply V c t (ix2 (y 0) (0 : Fin 1))
      (ix2 ((((cfg3.win 4).blk t).view.emb y : S100000x128.Idx) 0) (0 : Fin 1)) h0
    have a3 := blk3_apply V c t (ix2 (0 : Fin 1) (y 1))
      (ix2 (0 : Fin 1) ((((cfg3.win 4).blk t).view.emb y : S100000x128.Idx) 1)) h1
    rw [a0, a1, a2, a3]
  funext j
  exact key j

/-- An index of the array is in point t's block iff each coordinate is in the block's range on its axis. -/
theorem mem_blk (t : Fin cfg3.N) (i : S100000x128.Idx) :
    i ∈ ((cfg3.win 4).blk t).view.set ↔ ∀ a : Fin 2, win3_4.index t a * S2000x128.size a ≤ (i a).val
      ∧ (i a).val < win3_4.index t a * S2000x128.size a + S2000x128.size a := by
  show i ∈ ((View.whole main_v60).slice (win3_4.rect t)).set ↔ _
  rw [View.set_slice_whole, Rect.mem_set_unit]
  exact Iff.rfl

/-- Row r is in the block of point r / 2000. -/
theorem cover (i : S100000x128.Idx) :
    ∃ t : Fin cfg3.N, (cfg3.win 4).flush t = true ∧ i ∈ ((cfg3.win 4).blk t).view.set := by
  have hN : grid3.N = 50 := N_3
  have hi0 : (i 0).val < 100000 := (i 0).isLt
  have hi1 : (i 1).val < 128 := (i 1).isLt
  have ht : (i 0).val / 2000 < cfg3.N := by show _ < grid3.N; omega
  obtain ⟨-, -, -, -, -, -, -, -, e0, e1⟩ := idx_facts ⟨(i 0).val / 2000, ht⟩
  refine ⟨⟨(i 0).val / 2000, ht⟩, flush3_4 _, ?_⟩
  rw [mem_blk]
  intro a
  match a with
  | ⟨0, _⟩ =>
    show win3_4.index ⟨(i 0).val / 2000, ht⟩ (0 : Fin 2) * 2000 ≤ (i 0).val
      ∧ (i 0).val < win3_4.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win3_4.index ⟨(i 0).val / 2000, ht⟩ (1 : Fin 2) * 128 ≤ (i 1).val
      ∧ (i 1).val < win3_4.index ⟨(i 0).val / 2000, ht⟩ (1 : Fin 2) * 128 + 128
    rw [e1]; omega

/-- The output array after the region. -/
theorem arr_eq (c : Dev nD) :
    (dat3 V c).arrAt 4 cfg3.N = G (V c main_v58) (V c main_v45) (V c main_v28) (V c main_v59) :=
  (dat3 V c).arrAt_eq_of_cover 4 _ (fun t _ => flushed_eq V c t) cover

/-- The output array read at row p, lane q. -/
theorem final (c : Dev nD) (A H : S100000x128.Idx → EReal) (D : S100000x1.Idx → EReal) (B : S1x128.Idx → EReal) (Y : S100000x128.Idx → EReal)
    (hA : V c main_v58 = A) (hH : V c main_v45 = H) (hD : V c main_v28 = D) (hB : V c main_v59 = B)
    (hY : (dat3 (F := Ideal) V c).arrAt 4 cfg3.N = Y) (p : Fin 100000) (q : Fin 128) :
    Y (ix2 p q) = max ((A (ix2 p q) + H (ix2 p q) * D (ix2 p (0 : Fin 1))) + B (ix2 (0 : Fin 1) q)) (Ideal.ofBits .f32 0x00000000#32) := by
  subst hA hH hD hB hY
  rw [arr_eq]

end Cert.KernelIdeal.RegionV3

end
-- ==== Proof.Region4.lean ====
/- The linear region: the output array, entry by entry, is the product of the activations' row and the
   weights' column. The body's matrix product of two loaded blocks is read at an entry as a sum over the
   contracted axis; each grid point writes back the block of rows it covers of that whole-array product; the
   blocks of 2000 rows cover all 100000 rows. -/
import proofs.«167174_j89043261980692_1_alg».proof.Proof.Gen.KernelIdeal.Frame
import proofs.«167174_j89043261980692_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionV4

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The matrix product of two blocks at an entry -/

theorem lhs_0 (i : S2000x64.Idx) (r : dot_S2000x128_S128x64_S2000x64_1_0_0_1_n_n.contr.Idx) : (dot_S2000x128_S128x64_S2000x64_1_0_0_1_n_n.lhsIdx i r 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs_1 (i : S2000x64.Idx) (r : dot_S2000x128_S128x64_S2000x64_1_0_0_1_n_n.contr.Idx) : (dot_S2000x128_S128x64_S2000x64_1_0_0_1_n_n.lhsIdx i r 1).val = (r ⟨0, by decide⟩).val :=
  dot_S2000x128_S128x64_S2000x64_1_0_0_1_n_n.lhsIdx_val_of_single rfl i r
theorem rhs_0 (i : S2000x64.Idx) (r : dot_S2000x128_S128x64_S2000x64_1_0_0_1_n_n.contr.Idx) : (dot_S2000x128_S128x64_S2000x64_1_0_0_1_n_n.rhsIdx i r 0).val = (r ⟨0, by decide⟩).val :=
  dot_S2000x128_S128x64_S2000x64_1_0_0_1_n_n.rhsIdx_val_of_single rfl i r
theorem rhs_1 (i : S2000x64.Idx) (r : dot_S2000x128_S128x64_S2000x64_1_0_0_1_n_n.contr.Idx) : (dot_S2000x128_S128x64_S2000x64_1_0_0_1_n_n.rhsIdx i r 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The body's payload at an entry: the row of the first block against the column of the second (the casts to
    bf16 are the identity on extended reals; the accumulator is the zero splat). -/
theorem pay_apply (x0 : Vec Ideal S2000x128 .f32) (x1 : Vec Ideal S128x64 .f32) (p : Fin 2000) (q : Fin 64) :
    k4_pay1 (F := Ideal) x0 x1 (ix2 p q) = ∑ k : Fin 128, x0 (ix2 p k) * x1 (ix2 k q) := by
  unfold k4_pay1
  refine (Ideal.matmul_constant_zero_apply dot_S2000x128_S128x64_S2000x64_1_0_0_1_n_n none _ _ (ix2 p q)).trans ?_
  rw [← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q) ((contrEquiv1 dot_S2000x128_S128x64_S2000x64_1_0_0_1_n_n 128 rfl rfl).symm k) = ix2 p k := funext fun a => Fin.ext (by
    match a with
    | ⟨0, _⟩ => exact lhs_0 _ _
    | ⟨1, _⟩ => exact (lhs_1 _ _).trans hk)
  have er : dot_S2000x128_S128x64_S2000x64_1_0_0_1_n_n.rhsIdx (ix2 p q) ((contrEquiv1 dot_S2000x128_S128x64_S2000x64_1_0_0_1_n_n 128 rfl rfl).symm k) = ix2 k q := funext fun a => Fin.ext (by
    match a with
    | ⟨0, _⟩ => exact (rhs_0 _ _).trans hk
    | ⟨1, _⟩ => exact rhs_1 _ _)
  show (shapeCast S2000x128 x0 shapeCasts_S2000x128_S2000x128) (dot_S2000x128_S128x64_S2000x64_1_0_0_1_n_n.lhsIdx (ix2 p q) ((contrEquiv1 dot_S2000x128_S128x64_S2000x64_1_0_0_1_n_n 128 rfl rfl).symm k))
      * x1 (dot_S2000x128_S128x64_S2000x64_1_0_0_1_n_n.rhsIdx (ix2 p q) ((contrEquiv1 dot_S2000x128_S128x64_S2000x64_1_0_0_1_n_n 128 rfl rfl).symm k)) = _
  rw [el, er, shapeCast_self]

/-- The same at any index of the block, its coordinates named. -/
theorem pay_read (x0 : Vec Ideal S2000x128 .f32) (x1 : Vec Ideal S128x64 .f32) (j : S2000x64.Idx) :
    k4_pay1 (F := Ideal) x0 x1 j
      = ∑ k : Fin 128, x0 (ix2 (⟨(j 0).val, idx2_lt0 j⟩ : Fin 2000) k) * x1 (ix2 k (⟨(j 1).val, idx2_lt1 j⟩ : Fin 64)) := by
  have e : j = ix2 (⟨(j 0).val, idx2_lt0 j⟩ : Fin 2000) (⟨(j 1).val, idx2_lt1 j⟩ : Fin 64) := eq_ix2 j
  rw [e]
  exact pay_apply x0 x1 _ _

/-! ## The whole-array product, and what each grid point writes back -/

/-- The product of the activations and the weights, entry by entry. -/
abbrev G (X : S100000x128.Idx → EReal) (W : S128x64.Idx → EReal) : S100000x64.Idx → EReal := fun i =>
  ∑ k : Fin 128, X (ix2 (⟨(i 0).val, idx2_lt0 i⟩ : Fin 100000) k) * W (ix2 k (⟨(i 1).val, idx2_lt1 i⟩ : Fin 64))

/-- The index maps over the grid: the activations' and the output's block index is the grid point on the rows and
    zero on the columns; the weights' block index is zero. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The activations' block at point `t` reads the array at row `t * 2000 + ` the row inside the block. -/
theorem read_act (c : Dev nD) (t : Fin cfg4.N) (y : S2000x128.Idx) (i : S100000x128.Idx)
    (h0 : (i 0).val = t.val * 2000 + (y 0).val) (h1 : (i 1).val = (y 1).val) :
    iblk4 V c 0 t y = (V c main_v60 : S100000x128.Idx → EReal) i := by
  show (V c main_v60 : S100000x128.Idx → EReal) (((cfg4.win 0).blk t).view.emb y) = _
  obtain ⟨e0, e1, -, -, -, -⟩ := idx_facts t
  have e : ((cfg4.win 0).blk t).view.emb y = i := by
    funext a; apply Fin.ext
    match a with
    | ⟨0, _⟩ => show win4_0.index t (0 : Fin 2) * 2000 + 1 * (y 0).val = (i 0).val; omega
    | ⟨1, _⟩ => show win4_0.index t (1 : Fin 2) * 128 + 1 * (y 1).val = (i 1).val; omega
  rw [e]

/-- The weights' block at every point is the whole array. -/
theorem read_wt (c : Dev nD) (t : Fin cfg4.N) (y : S128x64.Idx) (i : S128x64.Idx)
    (h0 : (i 0).val = (y 0).val) (h1 : (i 1).val = (y 1).val) :
    iblk4 V c 1 t y = (V c main_arg8 : S128x64.Idx → EReal) i := by
  show (V c main_arg8 : S128x64.Idx → EReal) (((cfg4.win 1).blk t).view.emb y) = _
  obtain ⟨-, -, e0, e1, -, -⟩ := idx_facts t
  have e : ((cfg4.win 1).blk t).view.emb y = i := by
    funext a; apply Fin.ext
    match a with
    | ⟨0, _⟩ => show win4_1.index t (0 : Fin 2) * 128 + 1 * (y 0).val = (i 0).val; omega
    | ⟨1, _⟩ => show win4_1.index t (1 : Fin 2) * 64 + 1 * (y 1).val = (i 1).val; omega
  rw [e]

/-- Where an entry of the output's block at point `t` sits in the array. -/
theorem emb_out (t : Fin cfg4.N) (y : S2000x64.Idx) :
    ((((cfg4.win 2).blk t).view.emb y) 0).val = t.val * 2000 + (y 0).val
    ∧ ((((cfg4.win 2).blk t).view.emb y) 1).val = (y 1).val := by
  obtain ⟨-, -, -, -, e0, e1⟩ := idx_facts t
  constructor
  · show win4_2.index t (0 : Fin 2) * 2000 + 1 * (y 0).val = _; omega
  · show win4_2.index t (1 : Fin 2) * 64 + 1 * (y 1).val = _; omega

/-- What point `t` writes back is block `t` of the whole-array product. -/
theorem flushed_eq (c : Dev nD) (t : Fin cfg4.N) :
    (dat4 (F := Ideal) V c).flushed 2 t
      = ((cfg4.win 2).blk t).view.read (Elt Ideal) (G (V c main_v60) (V c main_arg8)) := by
  show (cfg4.win 2).cut (grid4.coords t) ((dat4 (F := Ideal) V c).after 2 t) = _
  rw [after4_2]
  unfold out4_2
  rw [View.canon_unit_zero hz]
  simp only [View.ld_unit_zero (S := S2000x128) hz, View.ld_unit_zero (S := S128x64) hz]
  funext j
  show k4_pay1 (F := Ideal) (iblk4 V c 0 t) (iblk4 V c 1 t) j
      = G (V c main_v60) (V c main_arg8) (((cfg4.win 2).blk t).view.emb j)
  refine (pay_read _ _ j).trans ?_
  obtain ⟨h0, h1⟩ := emb_out t j
  refine Finset.sum_congr rfl fun k _ => ?_
  exact congrArg₂ (· * ·) (read_act V c t _ _ h0 rfl) (read_wt V c t _ _ rfl h1)

/-! ## The blocks cover the array -/

/-- An index of the array is in point `t`'s block iff each coordinate is in the block's range on its axis. -/
theorem mem_blk (t : Fin cfg4.N) (i : S100000x64.Idx) :
    i ∈ ((cfg4.win 2).blk t).view.set ↔ ∀ a : Fin 2, win4_2.index t a * S2000x64.size a ≤ (i a).val
      ∧ (i a).val < win4_2.index t a * S2000x64.size a + S2000x64.size a := by
  show i ∈ ((View.whole main_v61).slice (win4_2.rect t)).set ↔ _
  rw [View.set_slice_whole, Rect.mem_set_unit]
  exact Iff.rfl

/-- Row `r` is in the block of point `r / 2000`. -/
theorem cover (i : S100000x64.Idx) :
    ∃ t : Fin cfg4.N, (cfg4.win 2).flush t = true ∧ i ∈ ((cfg4.win 2).blk t).view.set := by
  have hi0 : (i 0).val < 100000 := idx2_lt0 i
  have hi1 : (i 1).val < 64 := idx2_lt1 i
  have hN : grid4.N = 50 := N_4
  obtain ⟨t, ht⟩ : ∃ t : Fin cfg4.N, t.val = (i 0).val / 2000 :=
    ⟨⟨(i 0).val / 2000, by show (i 0).val / 2000 < grid4.N; omega⟩, rfl⟩
  obtain ⟨-, -, -, -, e0, e1⟩ := idx_facts t
  refine ⟨t, flush4_2 t, ?_⟩
  rw [mem_blk]
  intro a
  match a with
  | ⟨0, _⟩ =>
    show win4_2.index t (0 : Fin 2) * 2000 ≤ (i 0).val ∧ (i 0).val < win4_2.index t (0 : Fin 2) * 2000 + 2000
    omega
  | ⟨1, _⟩ =>
    show win4_2.index t (1 : Fin 2) * 64 ≤ (i 1).val ∧ (i 1).val < win4_2.index t (1 : Fin 2) * 64 + 64
    omega

/-- The array the output window ends holding is the whole-array product. -/
theorem arr_eq (c : Dev nD) :
    (dat4 (F := Ideal) V c).arrAt 2 cfg4.N = G (V c main_v60) (V c main_arg8) :=
  (dat4 (F := Ideal) V c).arrAt_eq_of_cover 2 (G (V c main_v60) (V c main_arg8)) (fun t _ => flushed_eq V c t) cover

/-- The region's output, entry by entry: the activations' row against the weights' column. -/
theorem final (c : Dev nD) (X : S100000x128.Idx → EReal) (W : S128x64.Idx → EReal) (Y : S100000x64.Idx → EReal)
    (hX : V c main_v60 = X) (hW : V c main_arg8 = W) (hY : (dat4 (F := Ideal) V c).arrAt 2 cfg4.N = Y)
    (p : Fin 100000) (q : Fin 64) :
    Y (ix2 p q) = ∑ k : Fin 128, X (ix2 p k) * W (ix2 k q) := by
  subst hX hW hY
  exact (congrFun (arr_eq V c) (ix2 p q)).trans rfl

end Cert.KernelIdeal.RegionV4

end
-- ==== Proof.Region5.lean ====
/- The combine step of the last layer: the output array of the region, read at row p and lane q, is the
   aggregate plus the features times the row's degree entry, plus the bias lane, each array taken as the
   region finds it. -/
import proofs.«167174_j89043261980692_1_alg».proof.Proof.Gen.KernelIdeal.Frame
import proofs.«167174_j89043261980692_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionV5

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The body's payload at row p, lane q of a block. -/
theorem pay_apply (d : Vec Ideal S2000x1 .f32) (b : Vec Ideal S1x64 .f32) (a h : Vec Ideal S2000x64 .f32)
    (p : Fin 2000) (q : Fin 64) :
    k5_pay1 (F := Ideal) d b a h (ix2 p q)
      = (a (ix2 p q) + h (ix2 p q) * d (ix2 p (0 : Fin 1))) + b (ix2 (0 : Fin 1) q) := by
  unfold k5_pay1
  simp only [shapeCast_self]
  rw [addf_apply, addf_apply, mulf_apply,
    Cert.Lib.broadcastTo_a1_ab_apply, broadcastTo_1b_ab_apply]

/-- The same, at any index of the block. -/
theorem pay_at (d : Vec Ideal S2000x1 .f32) (b : Vec Ideal S1x64 .f32) (a h : Vec Ideal S2000x64 .f32)
    (j : S2000x64.Idx) :
    k5_pay1 (F := Ideal) d b a h j
      = (a j + h j * d (ix2 (j 0) (0 : Fin 1))) + b (ix2 (0 : Fin 1) (j 1)) := by
  obtain ⟨p, q, rfl⟩ : ∃ (p : Fin 2000) (q : Fin 64), j = ix2 p q := ⟨j 0, j 1, eq_ix2 j⟩
  exact pay_apply d b a h p q

/-- What the output array ends holding, index by index. -/
abbrev G (A H : S100000x64.Idx → EReal) (D : S100000x1.Idx → EReal) (B : S1x64.Idx → EReal) : S100000x64.Idx → EReal :=
  fun i => (A i + H i * D (ix2 (i 0) (0 : Fin 1))) + B (ix2 (0 : Fin 1) (i 1))

/-- The index maps over the grid: the row blocks move with the grid point, the bias row stays. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- The aggregate's block at point t is rows 2000 t … 2000 t + 1999 of its array. -/
theorem blk0_apply (c : Dev nD) (t : Fin cfg5.N) (y : S2000x64.Idx) (k : S100000x64.Idx)
    (hk0 : (k 0).val = 2000 * t.val + (y 0).val) (hk1 : (k 1).val = (y 1).val) :
    (iblk5 V c 0 t : Vec Ideal S2000x64 .f32) y = (V c main_v74 : S100000x64.Idx → EReal) k := by
  obtain ⟨e0, e1, -⟩ := idx_facts t
  unfold iblk5
  rw [View.read_apply]
  show V c main_v74 _ = V c main_v74 _
  congr 1
  funext a; apply Fin.ext
  match a with
  | ⟨0, _⟩ => show win5_0.index t (0 : Fin 2) * 2000 + 1 * (y 0).val = (k 0).val; rw [e0, hk0]; omega
  | ⟨1, _⟩ => show win5_0.index t (1 : Fin 2) * 64 + 1 * (y 1).val = (k 1).val; rw [e1, hk1]; omega

/-- The features' block likewise. -/
theorem blk1_apply (c : Dev nD) (t : Fin cfg5.N) (y : S2000x64.Idx) (k : S100000x64.Idx)
    (hk0 : (k 0).val = 2000 * t.val + (y 0).val) (hk1 : (k 1).val = (y 1).val) :
    (iblk5 V c 1 t : Vec Ideal S2000x64 .f32) y = (V c main_v61 : S100000x64.Idx → EReal) k := by
  obtain ⟨-, -, e0, e1, -⟩ := idx_facts t
  unfold iblk5
  rw [View.read_apply]
  show V c main_v61 _ = V c main_v61 _
  congr 1
  funext a; apply Fin.ext
  match a with
  | ⟨0, _⟩ => show win5_1.index t (0 : Fin 2) * 2000 + 1 * (y 0).val = (k 0).val; rw [e0, hk0]; omega
  | ⟨1, _⟩ => show win5_1.index t (1 : Fin 2) * 64 + 1 * (y 1).val = (k 1).val; rw [e1, hk1]; omega

/-- The degree column's block is the same rows of the column. -/
theorem blk2_apply (c : Dev nD) (t : Fin cfg5.N) (y : S2000x1.Idx) (k : S100000x1.Idx)
    (hk0 : (k 0).val = 2000 * t.val + (y 0).val) :
    (iblk5 V c 2 t : Vec Ideal S2000x1 .f32) y = (V c main_v28 : S100000x1.Idx → EReal) k := by
  obtain ⟨-, -, -, -, e0, e1, -⟩ := idx_facts t
  unfold iblk5
  rw [View.read_apply]
  show V c main_v28 _ = V c main_v28 _
  congr 1
  funext a; apply Fin.ext
  match a with
  | ⟨0, _⟩ => show win5_2.index t (0 : Fin 2) * 2000 + 1 * (y 0).val = (k 0).val; rw [e0, hk0]; omega
  | ⟨1, _⟩ =>
    show win5_2.index t (1 : Fin 2) * 1 + 1 * (y 1).val = (k 1).val
    have h1 : (y 1).val < 1 := (y 1).isLt
    have h2 : (k 1).val < 1 := (k 1).isLt
    rw [e1]; omega

/-- The bias row's block is the whole row at every point. -/
theorem blk3_apply (c : Dev nD) (t : Fin cfg5.N) (y : S1x64.Idx) (k : S1x64.Idx) (hk1 : (k 1).val = (y 1).val) :
    (iblk5 V c 3 t : Vec Ideal S1x64 .f32) y = (V c main_v75 : S1x64.Idx → EReal) k := by
  obtain ⟨-, -, -, -, -, -, e0, e1, -⟩ := idx_facts t
  unfold iblk5
  rw [View.read_apply]
  show V c main_v75 _ = V c main_v75 _
  congr 1
  funext a; apply Fin.ext
  match a with
  | ⟨0, _⟩ =>
    show win5_3.index t (0 : Fin 2) * 1 + 1 * (y 0).val = (k 0).val
    have h1 : (y 0).val < 1 := (y 0).isLt
    have h2 : (k 0).val < 1 := (k 0).isLt
    rw [e0]; omega
  | ⟨1, _⟩ => show win5_3.index t (1 : Fin 2) * 64 + 1 * (y 1).val = (k 1).val; rw [e1, hk1]; omega

/-- Where the output's block at point t puts its element y. -/
theorem emb4 (t : Fin cfg5.N) (y : S2000x64.Idx) :
    (((((cfg5.win 4).blk t).view.emb y : S100000x64.Idx) 0).val = 2000 * t.val + (y 0).val)
    ∧ (((((cfg5.win 4).blk t).view.emb y : S100000x64.Idx) 1).val = (y 1).val) := by
  obtain ⟨-, -, -, -, -, -, -, -, e0, e1⟩ := idx_facts t
  constructor
  · show win5_4.index t (0 : Fin 2) * 2000 + 1 * (y 0).val = _; rw [e0]; omega
  · show win5_4.index t (1 : Fin 2) * 64 + 1 * (y 1).val = _; rw [e1]; omega

/-- What point t writes back is block t of G of the arrays as the region finds them. -/
theorem flushed_eq (c : Dev nD) (t : Fin cfg5.N) :
    (dat5 V c).flushed 4 t = ((cfg5.win 4).blk t).view.read (Elt Ideal)
      (G (V c main_v74) (V c main_v61) (V c main_v28) (V c main_v75)) := by
  show (cfg5.win 4).cut (grid5.coords t) ((dat5 V c).after 4 t) = _
  rw [after5_4]
  unfold out5_4
  rw [View.canon_unit_zero zeros2]
  simp only [View.ld_unit_zero (S := S2000x64) zeros2, View.ld_unit_zero (S := S2000x1) zeros2,
    View.ld_unit_zero (S := S1x64) zeros2]
  have key : ∀ y : S2000x64.Idx,
      k5_pay1 (F := Ideal) (iblk5 V c 2 t) (iblk5 V c 3 t) (iblk5 V c 0 t) (iblk5 V c 1 t) y
        = G (V c main_v74) (V c main_v61) (V c main_v28) (V c main_v75) (((cfg5.win 4).blk t).view.emb y) := by
    intro y
    obtain ⟨h0, h1⟩ := emb4 t y
    refine (pay_at _ _ _ _ y).trans ?_
    have a0 := blk0_apply V c t y _ h0 h1
    have a1 := blk1_apply V c t y _ h0 h1
    have a2 := blk2_apply V c t (ix2 (y 0) (0 : Fin 1))
      (ix2 ((((cfg5.win 4).blk t).view.emb y : S100000x64.Idx) 0) (0 : Fin 1)) h0
    have a3 := blk3_apply V c t (ix2 (0 : Fin 1) (y 1))
      (ix2 (0 : Fin 1) ((((cfg5.win 4).blk t).view.emb y : S100000x64.Idx) 1)) h1
    rw [a0, a1, a2, a3]
  funext j
  exact key j

/-- An index of the array is in point t's block iff each coordinate is in the block's range on its axis. -/
theorem mem_blk (t : Fin cfg5.N) (i : S100000x64.Idx) :
    i ∈ ((cfg5.win 4).blk t).view.set ↔ ∀ a : Fin 2, win5_4.index t a * S2000x64.size a ≤ (i a).val
      ∧ (i a).val < win5_4.index t a * S2000x64.size a + S2000x64.size a := by
  show i ∈ ((View.whole main_v76).slice (win5_4.rect t)).set ↔ _
  rw [View.set_slice_whole, Rect.mem_set_unit]
  exact Iff.rfl

/-- Row r is in the block of point r / 2000. -/
theorem cover (i : S100000x64.Idx) :
    ∃ t : Fin cfg5.N, (cfg5.win 4).flush t = true ∧ i ∈ ((cfg5.win 4).blk t).view.set := by
  have hN : grid5.N = 50 := N_5
  have hi0 : (i 0).val < 100000 := (i 0).isLt
  have hi1 : (i 1).val < 64 := (i 1).isLt
  have ht : (i 0).val / 2000 < cfg5.N := by show _ < grid5.N; omega
  obtain ⟨-, -, -, -, -, -, -, -, e0, e1⟩ := idx_facts ⟨(i 0).val / 2000, ht⟩
  refine ⟨⟨(i 0).val / 2000, ht⟩, flush5_4 _, ?_⟩
  rw [mem_blk]
  intro a
  match a with
  | ⟨0, _⟩ =>
    show win5_4.index ⟨(i 0).val / 2000, ht⟩ (0 : Fin 2) * 2000 ≤ (i 0).val
      ∧ (i 0).val < win5_4.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win5_4.index ⟨(i 0).val / 2000, ht⟩ (1 : Fin 2) * 64 ≤ (i 1).val
      ∧ (i 1).val < win5_4.index ⟨(i 0).val / 2000, ht⟩ (1 : Fin 2) * 64 + 64
    rw [e1]; omega

/-- The output array after the region. -/
theorem arr_eq (c : Dev nD) :
    (dat5 V c).arrAt 4 cfg5.N = G (V c main_v74) (V c main_v61) (V c main_v28) (V c main_v75) :=
  (dat5 V c).arrAt_eq_of_cover 4 _ (fun t _ => flushed_eq V c t) cover

/-- The output array read at row p, lane q. -/
theorem final (c : Dev nD) (A H : S100000x64.Idx → EReal) (D : S100000x1.Idx → EReal) (B : S1x64.Idx → EReal) (Y : S100000x64.Idx → EReal)
    (hA : V c main_v74 = A) (hH : V c main_v61 = H) (hD : V c main_v28 = D) (hB : V c main_v75 = B)
    (hY : (dat5 (F := Ideal) V c).arrAt 4 cfg5.N = Y) (p : Fin 100000) (q : Fin 64) :
    Y (ix2 p q) = (A (ix2 p q) + H (ix2 p q) * D (ix2 p (0 : Fin 1))) + B (ix2 (0 : Fin 1) q) := by
  subst hA hH hD hB hY
  rw [arr_eq]

end Cert.KernelIdeal.RegionV5

end
-- ==== Proof.Layers.lean ====
/-
  The three layers, boundary by boundary. Each layer is a projection h = x · W (a kernel launch), a host stretch that
  gathers h at the edges' sources, scales by the edge weights and scatter-adds at the targets, and a second launch that
  adds the self-loop term h · (1/deg) and the bias (and, in the first two layers, takes the maximum with zero). At every
  segment boundary the buffers the next segment reads hold the reference's own stages of the arguments: the host
  stretches are the reference's operations word for word, a projection launch is the reference's matrix product index by
  index, and a combine launch is the reference's chain of additions read at an index (its column of inverse degrees and
  its bias row reach the launch as a cast where the reference broadcasts; at an index the two agree).
-/
import proofs.«167174_j89043261980692_1_alg».proof.Proof.Carry
import proofs.«167174_j89043261980692_1_alg».proof.Proof.LibColumn
import proofs.«167174_j89043261980692_1_alg».proof.Proof.Region0
import proofs.«167174_j89043261980692_1_alg».proof.Proof.Region1
import proofs.«167174_j89043261980692_1_alg».proof.Proof.Region2
import proofs.«167174_j89043261980692_1_alg».proof.Proof.Region3
import proofs.«167174_j89043261980692_1_alg».proof.Proof.Region4
import proofs.«167174_j89043261980692_1_alg».proof.Proof.Region5
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal

namespace Layers

open Cert.KernelIdeal Cert.KernelIdeal.Gen Cert.KernelIdeal.Carry
open Idealize.ShloMosaic Idealize.ShloMosaic.TcCoe Idealize.SL.Sem Idealize.ShloMosaic.StableHlo Idealize.ShloMosaic.ValueIdx
open Cert.ReferenceIdeal (Read.val_main_v28)

/-! ## The reference's index maps at an index given by its coordinates -/

theorem lidx28 (p : Fin 100000) (q k : Fin 128) : Cert.ReferenceIdeal.Read.lidx_main_v28 (ix2 p q) k = ix2 p k :=
  funext fun a => by match a with | ⟨0, _⟩ => rfl | ⟨1, _⟩ => rfl
theorem ridx28 (p : Fin 100000) (q k : Fin 128) : Cert.ReferenceIdeal.Read.ridx_main_v28 (ix2 p q) k = ix2 k q :=
  funext fun a => by match a with | ⟨0, _⟩ => rfl | ⟨1, _⟩ => rfl
theorem lidx50 (p : Fin 100000) (q k : Fin 128) : Cert.ReferenceIdeal.Read.lidx_main_v50 (ix2 p q) k = ix2 p k :=
  funext fun a => by match a with | ⟨0, _⟩ => rfl | ⟨1, _⟩ => rfl
theorem ridx50 (p : Fin 100000) (q k : Fin 128) : Cert.ReferenceIdeal.Read.ridx_main_v50 (ix2 p q) k = ix2 k q :=
  funext fun a => by match a with | ⟨0, _⟩ => rfl | ⟨1, _⟩ => rfl
theorem lidx72 (p : Fin 100000) (q : Fin 64) (k : Fin 128) : Cert.ReferenceIdeal.Read.lidx_main_v72 (ix2 p q) k = ix2 p k :=
  funext fun a => by match a with | ⟨0, _⟩ => rfl | ⟨1, _⟩ => rfl
theorem ridx72 (p : Fin 100000) (q : Fin 64) (k : Fin 128) : Cert.ReferenceIdeal.Read.ridx_main_v72 (ix2 p q) k = ix2 k q :=
  funext fun a => by match a with | ⟨0, _⟩ => rfl | ⟨1, _⟩ => rfl
/-- The inverse degree a row is scaled by, and the bias entry a column gets, through the reference's two broadcasts. -/
theorem col1 (p : Fin 100000) (q : Fin 128) : Cert.ReferenceIdeal.Read.idx_main_v42 (Cert.ReferenceIdeal.Read.idx_main_v43 (ix2 p q)) = ix1 p :=
  funext fun a => by match a with | ⟨0, _⟩ => rfl
theorem row1 (p : Fin 100000) (q : Fin 128) : Cert.ReferenceIdeal.Read.idx_main_v46 (Cert.ReferenceIdeal.Read.idx_main_v47 (ix2 p q)) = ix1 q :=
  funext fun a => by match a with | ⟨0, _⟩ => rfl
theorem col3 (p : Fin 100000) (q : Fin 128) : Cert.ReferenceIdeal.Read.idx_main_v64 (Cert.ReferenceIdeal.Read.idx_main_v65 (ix2 p q)) = ix1 p :=
  funext fun a => by match a with | ⟨0, _⟩ => rfl
theorem row3 (p : Fin 100000) (q : Fin 128) : Cert.ReferenceIdeal.Read.idx_main_v68 (Cert.ReferenceIdeal.Read.idx_main_v69 (ix2 p q)) = ix1 q :=
  funext fun a => by match a with | ⟨0, _⟩ => rfl
theorem col5 (p : Fin 100000) (q : Fin 64) : Cert.ReferenceIdeal.Read.idx_main_v86 (Cert.ReferenceIdeal.Read.idx_main_v87 (ix2 p q)) = ix1 p :=
  funext fun a => by match a with | ⟨0, _⟩ => rfl
theorem row5 (p : Fin 100000) (q : Fin 64) : Cert.ReferenceIdeal.Read.idx_main_v90 (Cert.ReferenceIdeal.Read.idx_main_v91 (ix2 p q)) = ix1 q :=
  funext fun a => by match a with | ⟨0, _⟩ => rfl

open Cert.ReferenceIdeal

variable (m : (ℓ : Loc nD τ sig) → Buf (Elt Ideal) ℓ) (ρ : Dev nD → PrngReg)

/-! ## Layer 1 -/

/-- The first projection: the input features times the first weight matrix. -/
theorem w2_h (c : Dev nD) : W2 m ρ c (Proc.devRef .tc main_v29) = Read.val_main_v28 (F := Ideal) (m ((c : Thread nD τ).loc main_arg0)) (m ((c : Thread nD τ).loc main_arg4)) := by
  refine (W2_arr m ρ c 2).trans ?_
  funext i
  obtain ⟨p, q, rfl⟩ : ∃ (p : Fin 100000) (q : Fin 128), i = ix2 p q := ⟨i 0, i 1, eq_ix2 i⟩
  refine (RegionV0.final (V1 m ρ) c _ _ _ (w1_arg0 m ρ c) (w1_arg4 m ρ c) rfl p q).trans ?_
  rw [Read.val_main_v28_apply]
  simp only [lidx28, ridx28]

/-- The first layer's aggregated messages: the projection gathered at the sources, scaled by the edge weights, summed at the targets. -/
theorem w3_agg (c : Dev nD) : W3 m ρ c (Proc.devRef .tc main_v42) = Read.val_main_v41 (F := Ideal) (m ((c : Thread nD τ).loc main_arg0)) (m ((c : Thread nD τ).loc main_arg1)) (m ((c : Thread nD τ).loc main_arg4)) := by
  show StableHlo.after hostOps1 (W2 m ρ c) (Proc.devRef .tc main_v42) = _
  after_results_simp
  rw [(agree2 m ρ c _ mem_v3).trans (w1_dst m ρ c), w2_h m ρ c, (agree2 m ρ c _ mem_v1).trans (w1_src m ρ c),
    (agree2 m ρ c _ mem_v27).trans (w1_we m ρ c)]
  rfl
/-- The bias as one row. -/
theorem w3_brow (c : Dev nD) : W3 m ρ c (Proc.devRef .tc main_v43)
    = shapeCast S1x128 (m ((c : Thread nD τ).loc main_arg5)) shapeCasts_S128_S1x128 := by
  show StableHlo.after hostOps1 (W2 m ρ c) (Proc.devRef .tc main_v43) = _
  after_results_simp
  rw [(agree2 m ρ c _ mem_arg5).trans (w1_arg5 m ρ c)]
  rfl
/-- The stretch does not write the layer's projection. -/
theorem w3_h (c : Dev nD) : W3 m ρ c (Proc.devRef .tc main_v29) = Read.val_main_v28 (F := Ideal) (m ((c : Thread nD τ).loc main_arg0)) (m ((c : Thread nD τ).loc main_arg4)) := by
  show StableHlo.after hostOps1 (W2 m ρ c) (Proc.devRef .tc main_v29) = _
  after_results_simp
  exact w2_h m ρ c

/-- The first layer's output: messages plus self-loop term plus bias, clipped below at zero. -/
theorem w4_out (c : Dev nD) : W4 m ρ c (Proc.devRef .tc main_v44) = Read.val_main_v49 (F := Ideal) (m ((c : Thread nD τ).loc main_arg0)) (m ((c : Thread nD τ).loc main_arg1)) (m ((c : Thread nD τ).loc main_arg4)) (m ((c : Thread nD τ).loc main_arg5)) := by
  refine (W4_arr m ρ c 4).trans ?_
  funext i
  obtain ⟨p, q, rfl⟩ : ∃ (p : Fin 100000) (q : Fin 128), i = ix2 p q := ⟨i 0, i 1, eq_ix2 i⟩
  refine (RegionV1.final (V3 m ρ) c _ _ _ _ _ (w3_agg m ρ c) (w3_h m ρ c) ((agree3 m ρ c _ mem_v28).trans (w1_dcol m ρ c))
    (w3_brow m ρ c) rfl p q).trans ?_
  rw [Read.val_main_v49_apply, Read.val_main_v48_apply, Read.val_main_v45_apply, Read.val_main_v44_apply, Read.val_main_v43_apply, Read.val_main_v42_apply, Read.val_main_v47_apply, Read.val_main_v46_apply, Read.val_main_call0_v0_apply, Read.val_main_call0_cst_apply]
  rw [Cert.Lib.shapeCast_a_a1_apply, shapeCast_a_1a_apply, col1, row1]
  rfl

/-! ## Layer 2 -/

/-- The second projection. -/
theorem w5_h (c : Dev nD) : W5 m ρ c (Proc.devRef .tc main_v45) = Read.val_main_v50 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := by
  refine (W5_arr m ρ c 2).trans ?_
  funext i
  obtain ⟨p, q, rfl⟩ : ∃ (p : Fin 100000) (q : Fin 128), i = ix2 p q := ⟨i 0, i 1, eq_ix2 i⟩
  refine (RegionV2.final (V4 m ρ) c _ _ _ (w4_out m ρ c) ((agree4 m ρ c _ mem_arg6).trans (w1_arg6 m ρ c)) rfl p q).trans ?_
  rw [Read.val_main_v50_apply]
  simp only [lidx50, ridx50]

/-- The second layer's aggregated messages. -/
theorem w6_agg (c : Dev nD) : W6 m ρ c (Proc.devRef .tc main_v58) = Read.val_main_v63 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := by
  show StableHlo.after hostOps3 (W5 m ρ c) (Proc.devRef .tc main_v58) = _
  after_results_simp
  rw [(agree5 m ρ c _ mem_v3).trans (w1_dst m ρ c), w5_h m ρ c, (agree5 m ρ c _ mem_v1).trans (w1_src m ρ c),
    (agree5 m ρ c _ mem_v27).trans (w1_we m ρ c)]
  rfl
/-- The bias as one row. -/
theorem w6_brow (c : Dev nD) : W6 m ρ c (Proc.devRef .tc main_v59)
    = shapeCast S1x128 (m ((c : Thread nD τ).loc main_arg7)) shapeCasts_S128_S1x128 := by
  show StableHlo.after hostOps3 (W5 m ρ c) (Proc.devRef .tc main_v59) = _
  after_results_simp
  rw [(agree5 m ρ c _ mem_arg7).trans (w1_arg7 m ρ c)]
  rfl
/-- The stretch does not write the layer's projection. -/
theorem w6_h (c : Dev nD) : W6 m ρ c (Proc.devRef .tc main_v45) = Read.val_main_v50 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := by
  show StableHlo.after hostOps3 (W5 m ρ c) (Proc.devRef .tc main_v45) = _
  after_results_simp
  exact w5_h m ρ c

/-- The second layer's output. -/
theorem w7_out (c : Dev nD) : W7 m ρ c (Proc.devRef .tc main_v60) = Read.val_main_v71 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) := by
  refine (W7_arr m ρ c 4).trans ?_
  funext i
  obtain ⟨p, q, rfl⟩ : ∃ (p : Fin 100000) (q : Fin 128), i = ix2 p q := ⟨i 0, i 1, eq_ix2 i⟩
  refine (RegionV3.final (V6 m ρ) c _ _ _ _ _ (w6_agg m ρ c) (w6_h m ρ c) ((agree6 m ρ c _ mem_v28).trans (w1_dcol m ρ c))
    (w6_brow m ρ c) rfl p q).trans ?_
  rw [Read.val_main_v71_apply, Read.val_main_v70_apply, Read.val_main_v67_apply, Read.val_main_v66_apply, Read.val_main_v65_apply, Read.val_main_v64_apply, Read.val_main_v69_apply, Read.val_main_v68_apply, Read.val_main_call1_v0_apply, Read.val_main_call1_cst_apply]
  rw [Cert.Lib.shapeCast_a_a1_apply, shapeCast_a_1a_apply, col3, row3]
  rfl

/-! ## Layer 3 -/

/-- The third projection, to 64 channels. -/
theorem w8_h (c : Dev nD) : W8 m ρ c (Proc.devRef .tc main_v61) = Read.val_main_v72 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W8_arr m ρ c 2).trans ?_
  funext i
  obtain ⟨p, q, rfl⟩ : ∃ (p : Fin 100000) (q : Fin 64), i = ix2 p q := ⟨i 0, i 1, eq_ix2 i⟩
  refine (RegionV4.final (V7 m ρ) c _ _ _ (w7_out m ρ c) ((agree7 m ρ c _ mem_arg8).trans (w1_arg8 m ρ c)) rfl p q).trans ?_
  rw [Read.val_main_v72_apply]
  simp only [lidx72, ridx72]

/-- The third layer's aggregated messages. -/
theorem w9_agg (c : Dev nD) : W9 m ρ c (Proc.devRef .tc main_v74) = Read.val_main_v85 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps5 (W8 m ρ c) (Proc.devRef .tc main_v74) = _
  after_results_simp
  rw [(agree8 m ρ c _ mem_v3).trans (w1_dst m ρ c), w8_h m ρ c, (agree8 m ρ c _ mem_v1).trans (w1_src m ρ c),
    (agree8 m ρ c _ mem_v27).trans (w1_we m ρ c)]
  rfl
/-- The bias as one row. -/
theorem w9_brow (c : Dev nD) : W9 m ρ c (Proc.devRef .tc main_v75)
    = shapeCast S1x64 (m ((c : Thread nD τ).loc main_arg9)) shapeCasts_S64_S1x64 := by
  show StableHlo.after hostOps5 (W8 m ρ c) (Proc.devRef .tc main_v75) = _
  after_results_simp
  rw [(agree8 m ρ c _ mem_arg9).trans (w1_arg9 m ρ c)]
  rfl
/-- The stretch does not write the layer's projection. -/
theorem w9_h (c : Dev nD) : W9 m ρ c (Proc.devRef .tc main_v61) = Read.val_main_v72 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps5 (W8 m ρ c) (Proc.devRef .tc main_v61) = _
  after_results_simp
  exact w8_h m ρ c

/-- The third layer's output (no clipping): the node embeddings. -/
theorem w10_out (c : Dev nD) : W10 m ρ c (Proc.devRef .tc main_v76) = Read.val_main_v92 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W10_arr m ρ c 4).trans ?_
  funext i
  obtain ⟨p, q, rfl⟩ : ∃ (p : Fin 100000) (q : Fin 64), i = ix2 p q := ⟨i 0, i 1, eq_ix2 i⟩
  refine (RegionV5.final (V9 m ρ) c _ _ _ _ _ (w9_agg m ρ c) (w9_h m ρ c) ((agree9 m ρ c _ mem_v28).trans (w1_dcol m ρ c))
    (w9_brow m ρ c) rfl p q).trans ?_
  rw [Read.val_main_v92_apply, Read.val_main_v89_apply, Read.val_main_v88_apply, Read.val_main_v87_apply, Read.val_main_v86_apply, Read.val_main_v91_apply, Read.val_main_v90_apply]
  rw [Cert.Lib.shapeCast_a_a1_apply, shapeCast_a_1a_apply, col5, row5]
  rfl

end Layers

end Cert.KernelIdeal

end
-- ==== Proof.Region6.lean ====
/-
  The dot-reduce region: its output array, read at row p, is the sum over the 64 columns of the products of the two
  input arrays' rows p. The payload at a row is the row's lane sum of products; each point writes back block t of that
  whole-array function; the blocks of 2000 rows cover the 200000 rows.
-/
import proofs.«167174_j89043261980692_1_alg».proof.Proof.Gen.KernelIdeal.Frame
import proofs.«167174_j89043261980692_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionV6

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_start : (![0, 0] : Fin 2 → Nat) = fun _ => 0 := funext fun a => by fin_cases a <;> rfl

/-- The whole-array function: row `i 0` of the products, summed over the 64 columns. -/
abbrev rowDot (A B : S200000x64.Idx → EReal) : S200000x1.Idx → EReal :=
  fun i => ∑ k : Fin 64, A (ix2 ⟨(i 0).val, idx2_lt0 i⟩ k) * B (ix2 ⟨(i 0).val, idx2_lt0 i⟩ k)

/-- The payload at a row: the lane sum of the products of the two blocks' rows. -/
theorem pay_apply (x0 x1 : Vec Ideal S2000x64 .f32) (p : Fin 2000) (u : Fin 1) :
    k6_pay1 x0 x1 (ix2 p u) = ∑ k : Fin 64, x0 (ix2 p k) * x1 (ix2 p k) := by
  unfold k6_pay1
  refine (Cert.Lib.shapeCast_a_a1_apply _ _ p u).trans ?_
  refine (Cert.Lib.multiReduction_add_row _ _ _ _ p).trans ?_
  rw [shapeCast_self, shapeCast_self]
  rfl

/-- The printed index maps, decided over the grid: every window's block row index is the point, its column index 0. -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

/-- The first input's block at point `t`, read at row `r`, column `k`: the array at the row the output's block puts `r` at. -/
theorem blk0_row (c : Dev nD) (t : Fin cfg6.N) (r : Fin 2000) (k : Fin 64) (i : S200000x1.Idx)
    (hi : (i 0).val = win6_2.index t (0 : Fin 2) * 2000 + 1 * r.val) :
    iblk6 (F := Ideal) V c 0 t (ix2 r k) = (V c main_v83 : S200000x64.Idx → EReal) (ix2 ⟨(i 0).val, idx2_lt0 i⟩ k) := by
  show (V c main_v83 : S200000x64.Idx → EReal) (((cfg6.win 0).blk t).view.emb (ix2 r k)) = _
  refine congrArg _ (funext fun a => Fin.ext ?_)
  obtain ⟨e0, e1, e2, e3, e4, e5⟩ := idx_facts t
  match a with
  | ⟨0, _⟩ => show win6_0.index t (0 : Fin 2) * 2000 + 1 * r.val = (i 0).val; omega
  | ⟨1, _⟩ => show win6_0.index t (1 : Fin 2) * 64 + 1 * k.val = k.val; omega

/-- The second input's block likewise. -/
theorem blk1_row (c : Dev nD) (t : Fin cfg6.N) (r : Fin 2000) (k : Fin 64) (i : S200000x1.Idx)
    (hi : (i 0).val = win6_2.index t (0 : Fin 2) * 2000 + 1 * r.val) :
    iblk6 (F := Ideal) V c 1 t (ix2 r k) = (V c main_v90 : S200000x64.Idx → EReal) (ix2 ⟨(i 0).val, idx2_lt0 i⟩ k) := by
  show (V c main_v90 : S200000x64.Idx → EReal) (((cfg6.win 1).blk t).view.emb (ix2 r k)) = _
  refine congrArg _ (funext fun a => Fin.ext ?_)
  obtain ⟨e0, e1, e2, e3, e4, e5⟩ := idx_facts t
  match a with
  | ⟨0, _⟩ => show win6_1.index t (0 : Fin 2) * 2000 + 1 * r.val = (i 0).val; omega
  | ⟨1, _⟩ => show win6_1.index t (1 : Fin 2) * 64 + 1 * k.val = k.val; omega

/-- What point `t` writes back is block `t` of the row dot products of the arrays as the region finds them. -/
theorem flushed_eq (c : Dev nD) (t : Fin cfg6.N) :
    (dat6 (F := Ideal) V c).flushed 2 t
      = ((cfg6.win 2).blk t).view.read (Elt Ideal) (rowDot (V c main_v83) (V c main_v90)) := by
  show (cfg6.win 2).cut (grid6.coords t) ((dat6 (F := Ideal) V c).after 2 t) = _
  rw [after6_2]
  unfold out6_2
  rw [View.canon_unit_zero zero_start]
  simp only [View.ld_unit_zero (S := S2000x64) zero_start]
  funext j
  show k6_pay1 (iblk6 (F := Ideal) V c 0 t) (iblk6 (F := Ideal) V c 1 t) j
    = rowDot (V c main_v83) (V c main_v90) (((cfg6.win 2).blk t).view.emb j)
  refine (congrArg (k6_pay1 (iblk6 (F := Ideal) V c 0 t) (iblk6 (F := Ideal) V c 1 t)) (eq_ix2 j)).trans ?_
  refine (pay_apply _ _ (j 0) (j 1)).trans ?_
  refine Finset.sum_congr rfl fun k _ => ?_
  exact congrArg₂ (· * ·) (blk0_row V c t (j 0) k (((cfg6.win 2).blk t).view.emb j) rfl)
    (blk1_row V c t (j 0) k (((cfg6.win 2).blk t).view.emb j) rfl)

/-- An index of the array is in point `t`'s block iff each coordinate is in the block's range on its axis. -/
theorem mem_blk (t : Fin cfg6.N) (i : S200000x1.Idx) :
    i ∈ ((cfg6.win 2).blk t).view.set ↔ ∀ a : Fin 2, win6_2.index t a * S2000x1.size a ≤ (i a).val ∧ (i a).val < win6_2.index t a * S2000x1.size a + S2000x1.size a := by
  show i ∈ ((View.whole main_v91).slice (win6_2.rect t)).set ↔ _
  rw [View.set_slice_whole, Rect.mem_set_unit]
  exact Iff.rfl

/-- Every row is in the block of the point `row / 2000`, which writes back. -/
theorem cover (i : S200000x1.Idx) :
    ∃ t : Fin cfg6.N, (cfg6.win 2).flush t = true ∧ i ∈ ((cfg6.win 2).blk t).view.set := by
  have hi0 : (i 0).val < 200000 := idx2_lt0 i
  have hi1 : (i 1).val < 1 := idx2_lt1 i
  have hN : grid6.N = 100 := N_6
  have ht : (i 0).val / 2000 < cfg6.N := by show _ < grid6.N; omega
  obtain ⟨e0, e1, e2, e3, e4, e5⟩ := idx_facts ⟨(i 0).val / 2000, ht⟩
  refine ⟨⟨(i 0).val / 2000, ht⟩, flush6_2 _, ?_⟩
  rw [mem_blk]
  intro a
  match a with
  | ⟨0, _⟩ =>
    show win6_2.index ⟨(i 0).val / 2000, ht⟩ (0 : Fin 2) * 2000 ≤ (i 0).val ∧ (i 0).val < win6_2.index ⟨(i 0).val / 2000, ht⟩ (0 : Fin 2) * 2000 + 2000
    have e4' : win6_2.index ⟨(i 0).val / 2000, ht⟩ (0 : Fin 2) = (i 0).val / 2000 := e4
    omega
  | ⟨1, _⟩ =>
    show win6_2.index ⟨(i 0).val / 2000, ht⟩ (1 : Fin 2) * 1 ≤ (i 1).val ∧ (i 1).val < win6_2.index ⟨(i 0).val / 2000, ht⟩ (1 : Fin 2) * 1 + 1
    omega

/-- The array the output window ends holding, at row `p`: the sum over the columns of the products of the inputs' rows `p`. -/
theorem final (c : Dev nD) (A B : S200000x64.Idx → EReal) (Y : S200000x1.Idx → EReal)
    (hA : V c main_v83 = A) (hB : V c main_v90 = B) (hY : (dat6 (F := Ideal) V c).arrAt 2 cfg6.N = Y) (p : Fin 200000) :
    Y (ix2 p (0 : Fin 1)) = ∑ k : Fin 64, A (ix2 p k) * B (ix2 p k) := by
  subst hA hB hY
  rw [(dat6 (F := Ideal) V c).arrAt_eq_of_cover 2 (rowDot (V c main_v83) (V c main_v90)) (fun t _ => flushed_eq V c t) cover]

end Cert.KernelIdeal.RegionV6

end
-- ==== Proof.Tail.lean ====
/-
  The program's last stretch. The two pair gathers read the last layer's output at the two index vectors; the dot-reduce
  launch sums, row by row, the products of the gathered rows; the closing reshape drops the unit column. When the last
  layer's output entering the stretch is the reference's, the final buffer is the reference's row sums.
-/
import proofs.«167174_j89043261980692_1_alg».proof.Proof.Carry
import proofs.«167174_j89043261980692_1_alg».proof.Proof.Region6
import proofs.«167174_j89043261980692_1_alg».proof.Proof.LibColumn
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Tail

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat)
open Cert.ReferenceIdeal (Read.val_main_v92 Read.val_main_v99 Read.val_main_v106 Read.val_main_v107 Read.val_main_v108
  Read.val_main_v108_apply Read.val_main_v107_apply Read.val_main_cst_19 Read.val_main_cst_19_apply Read.idx_main_v108)

variable (m : (ℓ : Loc nD τ sig) → Buf (Elt Ideal) ℓ) (ρ : Dev nD → PrngReg)

/-- An `[a, 1]` array cast to `[a]` reads, at `p`, the operand at `(p, 0)`. -/
theorem shapeCast_a1_a_apply {α : Type} {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- Entering the last launch, its first input holds the reference's rows gathered at the first index vector. -/
theorem w11_i (c : Dev nD)
    (h76 : W10 m ρ c (Proc.devRef .tc main_v76) = Read.val_main_v92 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :
    W11 m ρ c (Proc.devRef .tc main_v83) = Read.val_main_v99 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps6 (W10 m ρ c) (Proc.devRef .tc main_v83) = _
  after_results_simp
  rw [h76, (Carry.agree10 m ρ c _ Carry.mem_arg2).trans (Carry.w1_arg2 m ρ c)]
  rfl

/-- and its second input the rows gathered at the second index vector. -/
theorem w11_j (c : Dev nD)
    (h76 : W10 m ρ c (Proc.devRef .tc main_v76) = Read.val_main_v92 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :
    W11 m ρ c (Proc.devRef .tc main_v90) = Read.val_main_v106 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps6 (W10 m ρ c) (Proc.devRef .tc main_v90) = _
  after_results_simp
  rw [h76, (Carry.agree10 m ρ c _ Carry.mem_arg3).trans (Carry.w1_arg3 m ρ c)]
  rfl

/-- The reference's row sum at row `p`: the sum over the 64 columns of the products of the gathered rows. -/
theorem ref_row (c : Dev nD) (p : Fin 200000) :
    Read.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix1 p)
      = ∑ k : Fin 64, Read.val_main_v99 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 p k)
          * Read.val_main_v106 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 p k) := by
  rw [Read.val_main_v108_apply, Read.val_main_cst_19_apply]
  show Ideal.ofBits .f32 0x00000000#32 + _ = _
  rw [Ideal.ofBits_zero_f32, zero_add]
  refine Finset.sum_congr rfl fun k _ => ?_
  have hidx : Read.idx_main_v108 (ix1 p) k = ix2 p k :=
    funext fun a => by match a with | ⟨0, _⟩ => rfl | ⟨1, _⟩ => rfl
  rw [hidx, Read.val_main_v107_apply]
  rfl

/-- The final buffer is the reference's row sums. -/
theorem tail (c : Dev nD)
    (h76 : W10 m ρ c (Proc.devRef .tc main_v76) = Read.val_main_v92 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :
    W13 m ρ c (Proc.devRef .tc main_v92) = Read.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps7 (W12 m ρ c) (Proc.devRef .tc main_v92) = _
  after_results_simp
  funext i
  obtain ⟨p, rfl⟩ : ∃ p : Fin 200000, i = ix1 p := ⟨i 0, eq_ix1 i⟩
  refine (shapeCast_a1_a_apply _ _ p).trans ?_
  rw [ref_row m c p]
  rw [show W12 m ρ c (Proc.devRef .tc main_v91) = (dat6 (V11 m ρ) c).arrAt 2 cfg6.N from W12_arr m ρ c 2]
  exact RegionV6.final (V11 m ρ) c _ _ _ (w11_i m ρ c h76) (w11_j m ρ c h76) rfl p

end Cert.KernelIdeal.Tail

end
-- ==== Proof.lean ====
/-
  A three-layer graph convolution with a dot-product link decoder: the kernel's program against its jnp reference, over
  the extended reals.

  Both programs compute, from the edge list, each node's degree (with a self loop), the edge weights
  1/sqrt(deg src) · 1/sqrt(deg dst) and the inverse degrees; then three times h ← (Σ_{edges into i} w_e · (hW)[src e]) +
  (hW)[i] / deg i + b (clipped below at zero after the first two layers); then, for each queried pair (i, j), the inner
  product of rows i and j. The kernel's program runs the matrix products, the self-loop-and-bias step and the inner
  products as kernel launches over row blocks of 2000 and leaves the gathers and scatter-adds on the host; the reference
  runs everything on the host.

  At the ideal instance the two agree operation for operation: the host stretches of the kernel's program are the
  reference's own operations; a matrix-product launch (whose casts to a shorter float format are the identity there) writes,
  block by block, the reference's matrix product; a combine launch writes the reference's sums in the reference's order
  ((messages + h · 1/deg) + bias, then the maximum with zero); the last launch writes the row sums of the products, which
  the reference takes as a reduction from zero. No law of arithmetic beyond 0 + x = x is used, so the precondition is never
  opened. The three frames are the generated ones (the reference's is its generated run with the result dropped), and the
  idealization rewrote nothing.
-/
import proofs.«167174_j89043261980692_1_alg».proof.Defs
import proofs.«167174_j89043261980692_1_alg».proof.Proof.Gen.Kernel
import proofs.«167174_j89043261980692_1_alg».proof.Proof.Gen.Kernel.Frame
import proofs.«167174_j89043261980692_1_alg».proof.Proof.Gen.KernelIdeal
import proofs.«167174_j89043261980692_1_alg».proof.Proof.Gen.KernelIdeal.Frame
import proofs.«167174_j89043261980692_1_alg».proof.Proof.Gen.ReferenceIdeal
import proofs.«167174_j89043261980692_1_alg».proof.Proof.Gen.Pre_finite_inputs
import proofs.«167174_j89043261980692_1_alg».proof.Proof.Gen.ReferenceIdeal.Run
import proofs.«167174_j89043261980692_1_alg».proof.Proof.Gen.ReferenceIdeal.Read
import proofs.«167174_j89043261980692_1_alg».proof.Proof.RunValue
import proofs.«167174_j89043261980692_1_alg».proof.Proof.Layers
import proofs.«167174_j89043261980692_1_alg».proof.Proof.Tail
import Idealize.ShloMosaic.Adequacy
import Idealize.ShloMosaic.Init

noncomputable section

namespace Cert.Proof

open Idealize.ShloMosaic Idealize.ShloMosaic.TcCoe Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

/-- The reference's frame: its run with the result dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both programs end with the pair scores the reference's last stage names, of arguments that agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.ReferenceIdeal.Read.val_main_v108 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Tail.tail m ρ c (Cert.KernelIdeal.Layers.w10_out m ρ c)), (h c).2⟩)
      (Cert.KernelIdeal.RunV.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Read.val_main_v108_eq, e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
